-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel

variable [Facts]

def fn {F : FTy → Type} [FloatOps F] (main_arg0 : FVec F S32768x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  main_v3
-- ==== Kernel.lean ====
abbrev S32768x1024 : Shape := ⟨2, ![32768, 1024]⟩
abbrev S1024x1024 : Shape := ⟨2, ![1024, 1024]⟩
abbrev S1024x1x2x512 : Shape := ⟨4, ![1024, 1, 2, 512]⟩
abbrev S1024x1x2 : Shape := ⟨3, ![1024, 1, 2]⟩
abbrev S1024x1 : Shape := ⟨2, ![1024, 1]⟩
abbrev S1024x1x1 : Shape := ⟨3, ![1024, 1, 1]⟩
abbrev S1024x1x2x1 : Shape := ⟨4, ![1024, 1, 2, 1]⟩
abbrev S1024x2x2x256 : Shape := ⟨4, ![1024, 2, 2, 256]⟩
abbrev S1024x2x2 : Shape := ⟨3, ![1024, 2, 2]⟩
abbrev S1024x2 : Shape := ⟨2, ![1024, 2]⟩
abbrev S1024x2x1 : Shape := ⟨3, ![1024, 2, 1]⟩
abbrev S1024x2x2x1 : Shape := ⟨4, ![1024, 2, 2, 1]⟩
abbrev S1024x4x2x128 : Shape := ⟨4, ![1024, 4, 2, 128]⟩
abbrev S1024x4x2 : Shape := ⟨3, ![1024, 4, 2]⟩
abbrev S1024x4 : Shape := ⟨2, ![1024, 4]⟩
abbrev S1024x4x1 : Shape := ⟨3, ![1024, 4, 1]⟩
abbrev S1024x4x2x1 : Shape := ⟨4, ![1024, 4, 2, 1]⟩
abbrev S1024x8x2x64 : Shape := ⟨4, ![1024, 8, 2, 64]⟩
abbrev S1024x8x2 : Shape := ⟨3, ![1024, 8, 2]⟩
abbrev S1024x8 : Shape := ⟨2, ![1024, 8]⟩
abbrev S1024x8x1 : Shape := ⟨3, ![1024, 8, 1]⟩
abbrev S1024x8x2x1 : Shape := ⟨4, ![1024, 8, 2, 1]⟩
abbrev S1024x16x2x32 : Shape := ⟨4, ![1024, 16, 2, 32]⟩
abbrev S1024x16x2 : Shape := ⟨3, ![1024, 16, 2]⟩
abbrev S1024x16 : Shape := ⟨2, ![1024, 16]⟩
abbrev S1024x16x1 : Shape := ⟨3, ![1024, 16, 1]⟩
abbrev S1024x16x2x1 : Shape := ⟨4, ![1024, 16, 2, 1]⟩
abbrev S1024x32x2x16 : Shape := ⟨4, ![1024, 32, 2, 16]⟩
abbrev S1024x32x2 : Shape := ⟨3, ![1024, 32, 2]⟩
abbrev S1024x32 : Shape := ⟨2, ![1024, 32]⟩
abbrev S1024x32x1 : Shape := ⟨3, ![1024, 32, 1]⟩
abbrev S1024x32x2x1 : Shape := ⟨4, ![1024, 32, 2, 1]⟩
abbrev S1024x64x2x8 : Shape := ⟨4, ![1024, 64, 2, 8]⟩
abbrev S1024x64x2 : Shape := ⟨3, ![1024, 64, 2]⟩
abbrev S1024x64 : Shape := ⟨2, ![1024, 64]⟩
abbrev S1024x64x1 : Shape := ⟨3, ![1024, 64, 1]⟩
abbrev S1024x64x2x1 : Shape := ⟨4, ![1024, 64, 2, 1]⟩
abbrev S1024x128x2x4 : Shape := ⟨4, ![1024, 128, 2, 4]⟩
abbrev S1024x128x2 : Shape := ⟨3, ![1024, 128, 2]⟩
abbrev S1024x128 : Shape := ⟨2, ![1024, 128]⟩
abbrev S1024x128x1 : Shape := ⟨3, ![1024, 128, 1]⟩
abbrev S1024x128x2x1 : Shape := ⟨4, ![1024, 128, 2, 1]⟩
abbrev S1024x256x2x2 : Shape := ⟨4, ![1024, 256, 2, 2]⟩
abbrev S1024x256x2 : Shape := ⟨3, ![1024, 256, 2]⟩
abbrev S1024x256 : Shape := ⟨2, ![1024, 256]⟩
abbrev S1024x256x1 : Shape := ⟨3, ![1024, 256, 1]⟩
abbrev S1024x256x2x1 : Shape := ⟨4, ![1024, 256, 2, 1]⟩
abbrev S1024x512x2x1 : Shape := ⟨4, ![1024, 512, 2, 1]⟩
abbrev S1024x512x2 : Shape := ⟨3, ![1024, 512, 2]⟩
abbrev S1024x512 : Shape := ⟨2, ![1024, 512]⟩
abbrev S1024x512x1 : Shape := ⟨3, ![1024, 512, 1]⟩

abbrev nBuf : Space → Nat
  | .hbm => 2
  | .vmem => 4
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1x2x512 : S1024x1024.ShapeCasts S1024x1x2x512
  reduces_S1024x1x2x512_S1024x1x2 : S1024x1x2x512.Reduces [3] S1024x1x2
  reduces_S1024x1x2_S1024x1 : S1024x1x2.Reduces [2] S1024x1
  shapeCasts_S1024x1_S1024x1x1 : S1024x1.ShapeCasts S1024x1x1
  broadcasts_S1024x1x1_S1024x1x2 : S1024x1x1.Broadcasts S1024x1x2
  shapeCasts_S1024x1x2_S1024x1x2x1 : S1024x1x2.ShapeCasts S1024x1x2x1
  shapeCasts_S1024x1x2x1_S1024x1x2x1 : S1024x1x2x1.ShapeCasts S1024x1x2x1
  broadcasts_S1024x1x2x1_S1024x1x2x512 : S1024x1x2x1.Broadcasts S1024x1x2x512
  shapeCasts_S1024x1x2x512_S1024x1024 : S1024x1x2x512.ShapeCasts S1024x1024
  shapeCasts_S1024x1024_S1024x2x2x256 : S1024x1024.ShapeCasts S1024x2x2x256
  reduces_S1024x2x2x256_S1024x2x2 : S1024x2x2x256.Reduces [3] S1024x2x2
  reduces_S1024x2x2_S1024x2 : S1024x2x2.Reduces [2] S1024x2
  shapeCasts_S1024x2_S1024x2x1 : S1024x2.ShapeCasts S1024x2x1
  broadcasts_S1024x2x1_S1024x2x2 : S1024x2x1.Broadcasts S1024x2x2
  shapeCasts_S1024x2x2_S1024x2x2x1 : S1024x2x2.ShapeCasts S1024x2x2x1
  shapeCasts_S1024x2x2x1_S1024x2x2x1 : S1024x2x2x1.ShapeCasts S1024x2x2x1
  broadcasts_S1024x2x2x1_S1024x2x2x256 : S1024x2x2x1.Broadcasts S1024x2x2x256
  shapeCasts_S1024x2x2x256_S1024x1024 : S1024x2x2x256.ShapeCasts S1024x1024
  shapeCasts_S1024x1024_S1024x4x2x128 : S1024x1024.ShapeCasts S1024x4x2x128
  reduces_S1024x4x2x128_S1024x4x2 : S1024x4x2x128.Reduces [3] S1024x4x2
  reduces_S1024x4x2_S1024x4 : S1024x4x2.Reduces [2] S1024x4
  shapeCasts_S1024x4_S1024x4x1 : S1024x4.ShapeCasts S1024x4x1
  broadcasts_S1024x4x1_S1024x4x2 : S1024x4x1.Broadcasts S1024x4x2
  shapeCasts_S1024x4x2_S1024x4x2x1 : S1024x4x2.ShapeCasts S1024x4x2x1
  shapeCasts_S1024x4x2x1_S1024x4x2x1 : S1024x4x2x1.ShapeCasts S1024x4x2x1
  broadcasts_S1024x4x2x1_S1024x4x2x128 : S1024x4x2x1.Broadcasts S1024x4x2x128
  shapeCasts_S1024x4x2x128_S1024x1024 : S1024x4x2x128.ShapeCasts S1024x1024
  shapeCasts_S1024x1024_S1024x8x2x64 : S1024x1024.ShapeCasts S1024x8x2x64
  reduces_S1024x8x2x64_S1024x8x2 : S1024x8x2x64.Reduces [3] S1024x8x2
  reduces_S1024x8x2_S1024x8 : S1024x8x2.Reduces [2] S1024x8
  shapeCasts_S1024x8_S1024x8x1 : S1024x8.ShapeCasts S1024x8x1
  broadcasts_S1024x8x1_S1024x8x2 : S1024x8x1.Broadcasts S1024x8x2
  shapeCasts_S1024x8x2_S1024x8x2x1 : S1024x8x2.ShapeCasts S1024x8x2x1
  shapeCasts_S1024x8x2x1_S1024x8x2x1 : S1024x8x2x1.ShapeCasts S1024x8x2x1
  broadcasts_S1024x8x2x1_S1024x8x2x64 : S1024x8x2x1.Broadcasts S1024x8x2x64
  shapeCasts_S1024x8x2x64_S1024x1024 : S1024x8x2x64.ShapeCasts S1024x1024
  shapeCasts_S1024x1024_S1024x16x2x32 : S1024x1024.ShapeCasts S1024x16x2x32
  reduces_S1024x16x2x32_S1024x16x2 : S1024x16x2x32.Reduces [3] S1024x16x2
  reduces_S1024x16x2_S1024x16 : S1024x16x2.Reduces [2] S1024x16
  shapeCasts_S1024x16_S1024x16x1 : S1024x16.ShapeCasts S1024x16x1
  broadcasts_S1024x16x1_S1024x16x2 : S1024x16x1.Broadcasts S1024x16x2
  shapeCasts_S1024x16x2_S1024x16x2x1 : S1024x16x2.ShapeCasts S1024x16x2x1
  shapeCasts_S1024x16x2x1_S1024x16x2x1 : S1024x16x2x1.ShapeCasts S1024x16x2x1
  broadcasts_S1024x16x2x1_S1024x16x2x32 : S1024x16x2x1.Broadcasts S1024x16x2x32
  shapeCasts_S1024x16x2x32_S1024x1024 : S1024x16x2x32.ShapeCasts S1024x1024
  shapeCasts_S1024x1024_S1024x32x2x16 : S1024x1024.ShapeCasts S1024x32x2x16
  reduces_S1024x32x2x16_S1024x32x2 : S1024x32x2x16.Reduces [3] S1024x32x2
  reduces_S1024x32x2_S1024x32 : S1024x32x2.Reduces [2] S1024x32
  shapeCasts_S1024x32_S1024x32x1 : S1024x32.ShapeCasts S1024x32x1
  broadcasts_S1024x32x1_S1024x32x2 : S1024x32x1.Broadcasts S1024x32x2
  shapeCasts_S1024x32x2_S1024x32x2x1 : S1024x32x2.ShapeCasts S1024x32x2x1
  shapeCasts_S1024x32x2x1_S1024x32x2x1 : S1024x32x2x1.ShapeCasts S1024x32x2x1
  broadcasts_S1024x32x2x1_S1024x32x2x16 : S1024x32x2x1.Broadcasts S1024x32x2x16
  shapeCasts_S1024x32x2x16_S1024x1024 : S1024x32x2x16.ShapeCasts S1024x1024
  shapeCasts_S1024x1024_S1024x64x2x8 : S1024x1024.ShapeCasts S1024x64x2x8
  reduces_S1024x64x2x8_S1024x64x2 : S1024x64x2x8.Reduces [3] S1024x64x2
  reduces_S1024x64x2_S1024x64 : S1024x64x2.Reduces [2] S1024x64
  shapeCasts_S1024x64_S1024x64x1 : S1024x64.ShapeCasts S1024x64x1
  broadcasts_S1024x64x1_S1024x64x2 : S1024x64x1.Broadcasts S1024x64x2
  shapeCasts_S1024x64x2_S1024x64x2x1 : S1024x64x2.ShapeCasts S1024x64x2x1
  shapeCasts_S1024x64x2x1_S1024x64x2x1 : S1024x64x2x1.ShapeCasts S1024x64x2x1
  broadcasts_S1024x64x2x1_S1024x64x2x8 : S1024x64x2x1.Broadcasts S1024x64x2x8
  shapeCasts_S1024x64x2x8_S1024x1024 : S1024x64x2x8.ShapeCasts S1024x1024
  shapeCasts_S1024x1024_S1024x128x2x4 : S1024x1024.ShapeCasts S1024x128x2x4
  reduces_S1024x128x2x4_S1024x128x2 : S1024x128x2x4.Reduces [3] S1024x128x2
  reduces_S1024x128x2_S1024x128 : S1024x128x2.Reduces [2] S1024x128
  shapeCasts_S1024x128_S1024x128x1 : S1024x128.ShapeCasts S1024x128x1
  broadcasts_S1024x128x1_S1024x128x2 : S1024x128x1.Broadcasts S1024x128x2
  shapeCasts_S1024x128x2_S1024x128x2x1 : S1024x128x2.ShapeCasts S1024x128x2x1
  shapeCasts_S1024x128x2x1_S1024x128x2x1 : S1024x128x2x1.ShapeCasts S1024x128x2x1
  broadcasts_S1024x128x2x1_S1024x128x2x4 : S1024x128x2x1.Broadcasts S1024x128x2x4
  shapeCasts_S1024x128x2x4_S1024x1024 : S1024x128x2x4.ShapeCasts S1024x1024
  shapeCasts_S1024x1024_S1024x256x2x2 : S1024x1024.ShapeCasts S1024x256x2x2
  reduces_S1024x256x2x2_S1024x256x2 : S1024x256x2x2.Reduces [3] S1024x256x2
  reduces_S1024x256x2_S1024x256 : S1024x256x2.Reduces [2] S1024x256
  shapeCasts_S1024x256_S1024x256x1 : S1024x256.ShapeCasts S1024x256x1
  broadcasts_S1024x256x1_S1024x256x2 : S1024x256x1.Broadcasts S1024x256x2
  shapeCasts_S1024x256x2_S1024x256x2x1 : S1024x256x2.ShapeCasts S1024x256x2x1
  shapeCasts_S1024x256x2x1_S1024x256x2x1 : S1024x256x2x1.ShapeCasts S1024x256x2x1
  broadcasts_S1024x256x2x1_S1024x256x2x2 : S1024x256x2x1.Broadcasts S1024x256x2x2
  shapeCasts_S1024x256x2x2_S1024x1024 : S1024x256x2x2.ShapeCasts S1024x1024
  shapeCasts_S1024x1024_S1024x512x2x1 : S1024x1024.ShapeCasts S1024x512x2x1
  reduces_S1024x512x2x1_S1024x512x2 : S1024x512x2x1.Reduces [3] S1024x512x2
  reduces_S1024x512x2_S1024x512 : S1024x512x2.Reduces [2] S1024x512
  shapeCasts_S1024x512_S1024x512x1 : S1024x512.ShapeCasts S1024x512x1
  broadcasts_S1024x512x1_S1024x512x2 : S1024x512x1.Broadcasts S1024x512x2
  shapeCasts_S1024x512x2_S1024x512x2x1 : S1024x512x2.ShapeCasts S1024x512x2x1
  shapeCasts_S1024x512x2x1_S1024x1024 : S1024x512x2x1.ShapeCasts S1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S32768x1024.size a
  hwx0_1 : ∀ i : grid0.Coords, EltTy.bits .f32 = 32 ∨ (Rect.block (s := S32768x1024) S1024x1024.size (cc0_transform_1 i) (hinb0_1 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S_ : Shape := ⟨0, ![]⟩
abbrev S32768x1x2x512 : Shape := ⟨4, ![32768, 1, 2, 512]⟩
abbrev S32768x1x2 : Shape := ⟨3, ![32768, 1, 2]⟩
abbrev S32768x1 : Shape := ⟨2, ![32768, 1]⟩
abbrev S32768x1x1 : Shape := ⟨3, ![32768, 1, 1]⟩
abbrev S32768x1x2x1 : Shape := ⟨4, ![32768, 1, 2, 1]⟩
abbrev S32768x2x2x256 : Shape := ⟨4, ![32768, 2, 2, 256]⟩
abbrev S32768x2x2 : Shape := ⟨3, ![32768, 2, 2]⟩
abbrev S32768x2 : Shape := ⟨2, ![32768, 2]⟩
abbrev S32768x2x1 : Shape := ⟨3, ![32768, 2, 1]⟩
abbrev S32768x2x2x1 : Shape := ⟨4, ![32768, 2, 2, 1]⟩
abbrev S32768x4x2x128 : Shape := ⟨4, ![32768, 4, 2, 128]⟩
abbrev S32768x4x2 : Shape := ⟨3, ![32768, 4, 2]⟩
abbrev S32768x4 : Shape := ⟨2, ![32768, 4]⟩
abbrev S32768x4x1 : Shape := ⟨3, ![32768, 4, 1]⟩
abbrev S32768x4x2x1 : Shape := ⟨4, ![32768, 4, 2, 1]⟩
abbrev S32768x8x2x64 : Shape := ⟨4, ![32768, 8, 2, 64]⟩
abbrev S32768x8x2 : Shape := ⟨3, ![32768, 8, 2]⟩
abbrev S32768x8 : Shape := ⟨2, ![32768, 8]⟩
abbrev S32768x8x1 : Shape := ⟨3, ![32768, 8, 1]⟩
abbrev S32768x8x2x1 : Shape := ⟨4, ![32768, 8, 2, 1]⟩
abbrev S32768x16x2x32 : Shape := ⟨4, ![32768, 16, 2, 32]⟩
abbrev S32768x16x2 : Shape := ⟨3, ![32768, 16, 2]⟩
abbrev S32768x16 : Shape := ⟨2, ![32768, 16]⟩
abbrev S32768x16x1 : Shape := ⟨3, ![32768, 16, 1]⟩
abbrev S32768x16x2x1 : Shape := ⟨4, ![32768, 16, 2, 1]⟩
abbrev S32768x32x2x16 : Shape := ⟨4, ![32768, 32, 2, 16]⟩
abbrev S32768x32x2 : Shape := ⟨3, ![32768, 32, 2]⟩
abbrev S32768x32 : Shape := ⟨2, ![32768, 32]⟩
abbrev S32768x32x1 : Shape := ⟨3, ![32768, 32, 1]⟩
abbrev S32768x32x2x1 : Shape := ⟨4, ![32768, 32, 2, 1]⟩
abbrev S32768x64x2x8 : Shape := ⟨4, ![32768, 64, 2, 8]⟩
abbrev S32768x64x2 : Shape := ⟨3, ![32768, 64, 2]⟩
abbrev S32768x64 : Shape := ⟨2, ![32768, 64]⟩
abbrev S32768x64x1 : Shape := ⟨3, ![32768, 64, 1]⟩
abbrev S32768x64x2x1 : Shape := ⟨4, ![32768, 64, 2, 1]⟩
abbrev S32768x128x2x4 : Shape := ⟨4, ![32768, 128, 2, 4]⟩
abbrev S32768x128x2 : Shape := ⟨3, ![32768, 128, 2]⟩
abbrev S32768x128 : Shape := ⟨2, ![32768, 128]⟩
abbrev S32768x128x1 : Shape := ⟨3, ![32768, 128, 1]⟩
abbrev S32768x128x2x1 : Shape := ⟨4, ![32768, 128, 2, 1]⟩
abbrev S32768x256x2x2 : Shape := ⟨4, ![32768, 256, 2, 2]⟩
abbrev S32768x256x2 : Shape := ⟨3, ![32768, 256, 2]⟩
abbrev S32768x256 : Shape := ⟨2, ![32768, 256]⟩
abbrev S32768x256x1 : Shape := ⟨3, ![32768, 256, 1]⟩
abbrev S32768x256x2x1 : Shape := ⟨4, ![32768, 256, 2, 1]⟩
abbrev S32768x512x2x1 : Shape := ⟨4, ![32768, 512, 2, 1]⟩
abbrev S32768x512x2 : Shape := ⟨3, ![32768, 512, 2]⟩
abbrev S32768x512 : Shape := ⟨2, ![32768, 512]⟩
abbrev S32768x512x1 : Shape := ⟨3, ![32768, 512, 1]⟩

abbrev nBuf : Space → Nat
  | .hbm => 242
  | .vmem => 0
  | .smem => 0
  | _ => 0

abbrev hbmTy0_0 (i : Nat) : BufTy := match i % 128 with
  | 0 => ⟨S32768x1024, .f32⟩
  | 1 => ⟨S_, .f32⟩
  | 2 => ⟨S32768x1024, .f32⟩
  | 3 => ⟨S32768x1x2x512, .f32⟩
  | 4 => ⟨S_, .f32⟩
  | 5 => ⟨S32768x1x2, .f32⟩
  | 6 => ⟨S_, .f32⟩
  | 7 => ⟨S32768x1x2, .f32⟩
  | 8 => ⟨S32768x1x2, .f32⟩
  | 9 => ⟨S_, .f32⟩
  | 10 => ⟨S32768x1, .f32⟩
  | 11 => ⟨S_, .f32⟩
  | 12 => ⟨S32768x1, .f32⟩
  | 13 => ⟨S32768x1, .f32⟩
  | 14 => ⟨S32768x1x1, .f32⟩
  | 15 => ⟨S32768x1x2, .f32⟩
  | 16 => ⟨S32768x1x2, .f32⟩
  | 17 => ⟨S32768x1x2, .f32⟩
  | 18 => ⟨S_, .f32⟩
  | 19 => ⟨S32768x1, .f32⟩
  | 20 => ⟨S32768x1x1, .f32⟩
  | 21 => ⟨S32768x1x2, .f32⟩
  | 22 => ⟨S32768x1x2, .f32⟩
  | 23 => ⟨S32768x1x2x1, .f32⟩
  | 24 => ⟨S32768x1x2x512, .f32⟩
  | 25 => ⟨S32768x1024, .f32⟩
  | 26 => ⟨S32768x1024, .f32⟩
  | 27 => ⟨S32768x2x2x256, .f32⟩
  | 28 => ⟨S_, .f32⟩
  | 29 => ⟨S32768x2x2, .f32⟩
  | 30 => ⟨S_, .f32⟩
  | 31 => ⟨S32768x2x2, .f32⟩
  | 32 => ⟨S32768x2x2, .f32⟩
  | 33 => ⟨S_, .f32⟩
  | 34 => ⟨S32768x2, .f32⟩
  | 35 => ⟨S_, .f32⟩
  | 36 => ⟨S32768x2, .f32⟩
  | 37 => ⟨S32768x2, .f32⟩
  | 38 => ⟨S32768x2x1, .f32⟩
  | 39 => ⟨S32768x2x2, .f32⟩
  | 40 => ⟨S32768x2x2, .f32⟩
  | 41 => ⟨S32768x2x2, .f32⟩
  | 42 => ⟨S_, .f32⟩
  | 43 => ⟨S32768x2, .f32⟩
  | 44 => ⟨S32768x2x1, .f32⟩
  | 45 => ⟨S32768x2x2, .f32⟩
  | 46 => ⟨S32768x2x2, .f32⟩
  | 47 => ⟨S32768x2x2x1, .f32⟩
  | 48 => ⟨S32768x2x2x256, .f32⟩
  | 49 => ⟨S32768x1024, .f32⟩
  | 50 => ⟨S32768x1024, .f32⟩
  | 51 => ⟨S32768x4x2x128, .f32⟩
  | 52 => ⟨S_, .f32⟩
  | 53 => ⟨S32768x4x2, .f32⟩
  | 54 => ⟨S_, .f32⟩
  | 55 => ⟨S32768x4x2, .f32⟩
  | 56 => ⟨S32768x4x2, .f32⟩
  | 57 => ⟨S_, .f32⟩
  | 58 => ⟨S32768x4, .f32⟩
  | 59 => ⟨S_, .f32⟩
  | 60 => ⟨S32768x4, .f32⟩
  | 61 => ⟨S32768x4, .f32⟩
  | 62 => ⟨S32768x4x1, .f32⟩
  | 63 => ⟨S32768x4x2, .f32⟩
  | 64 => ⟨S32768x4x2, .f32⟩
  | 65 => ⟨S32768x4x2, .f32⟩
  | 66 => ⟨S_, .f32⟩
  | 67 => ⟨S32768x4, .f32⟩
  | 68 => ⟨S32768x4x1, .f32⟩
  | 69 => ⟨S32768x4x2, .f32⟩
  | 70 => ⟨S32768x4x2, .f32⟩
  | 71 => ⟨S32768x4x2x1, .f32⟩
  | 72 => ⟨S32768x4x2x128, .f32⟩
  | 73 => ⟨S32768x1024, .f32⟩
  | 74 => ⟨S32768x1024, .f32⟩
  | 75 => ⟨S32768x8x2x64, .f32⟩
  | 76 => ⟨S_, .f32⟩
  | 77 => ⟨S32768x8x2, .f32⟩
  | 78 => ⟨S_, .f32⟩
  | 79 => ⟨S32768x8x2, .f32⟩
  | 80 => ⟨S32768x8x2, .f32⟩
  | 81 => ⟨S_, .f32⟩
  | 82 => ⟨S32768x8, .f32⟩
  | 83 => ⟨S_, .f32⟩
  | 84 => ⟨S32768x8, .f32⟩
  | 85 => ⟨S32768x8, .f32⟩
  | 86 => ⟨S32768x8x1, .f32⟩
  | 87 => ⟨S32768x8x2, .f32⟩
  | 88 => ⟨S32768x8x2, .f32⟩
  | 89 => ⟨S32768x8x2, .f32⟩
  | 90 => ⟨S_, .f32⟩
  | 91 => ⟨S32768x8, .f32⟩
  | 92 => ⟨S32768x8x1, .f32⟩
  | 93 => ⟨S32768x8x2, .f32⟩
  | 94 => ⟨S32768x8x2, .f32⟩
  | 95 => ⟨S32768x8x2x1, .f32⟩
  | 96 => ⟨S32768x8x2x64, .f32⟩
  | 97 => ⟨S32768x1024, .f32⟩
  | 98 => ⟨S32768x1024, .f32⟩
  | 99 => ⟨S32768x16x2x32, .f32⟩
  | 100 => ⟨S_, .f32⟩
  | 101 => ⟨S32768x16x2, .f32⟩
  | 102 => ⟨S_, .f32⟩
  | 103 => ⟨S32768x16x2, .f32⟩
  | 104 => ⟨S32768x16x2, .f32⟩
  | 105 => ⟨S_, .f32⟩
  | 106 => ⟨S32768x16, .f32⟩
  | 107 => ⟨S_, .f32⟩
  | 108 => ⟨S32768x16, .f32⟩
  | 109 => ⟨S32768x16, .f32⟩
  | 110 => ⟨S32768x16x1, .f32⟩
  | 111 => ⟨S32768x16x2, .f32⟩
  | 112 => ⟨S32768x16x2, .f32⟩
  | 113 => ⟨S32768x16x2, .f32⟩
  | 114 => ⟨S_, .f32⟩
  | 115 => ⟨S32768x16, .f32⟩
  | 116 => ⟨S32768x16x1, .f32⟩
  | 117 => ⟨S32768x16x2, .f32⟩
  | 118 => ⟨S32768x16x2, .f32⟩
  | 119 => ⟨S32768x16x2x1, .f32⟩
  | 120 => ⟨S32768x16x2x32, .f32⟩
  | 121 => ⟨S32768x1024, .f32⟩
  | 122 => ⟨S32768x1024, .f32⟩
  | 123 => ⟨S32768x32x2x16, .f32⟩
  | 124 => ⟨S_, .f32⟩
  | 125 => ⟨S32768x32x2, .f32⟩
  | 126 => ⟨S_, .f32⟩
  | 127 => ⟨S32768x32x2, .f32⟩
  | _ => ⟨S32768x1024, .f32⟩

abbrev hbmTy0_1 (i : Nat) : BufTy := match i % 128 with
  | 0 => ⟨S32768x32x2, .f32⟩
  | 1 => ⟨S_, .f32⟩
  | 2 => ⟨S32768x32, .f32⟩
  | 3 => ⟨S_, .f32⟩
  | 4 => ⟨S32768x32, .f32⟩
  | 5 => ⟨S32768x32, .f32⟩
  | 6 => ⟨S32768x32x1, .f32⟩
  | 7 => ⟨S32768x32x2, .f32⟩
  | 8 => ⟨S32768x32x2, .f32⟩
  | 9 => ⟨S32768x32x2, .f32⟩
  | 10 => ⟨S_, .f32⟩
  | 11 => ⟨S32768x32, .f32⟩
  | 12 => ⟨S32768x32x1, .f32⟩
  | 13 => ⟨S32768x32x2, .f32⟩
  | 14 => ⟨S32768x32x2, .f32⟩
  | 15 => ⟨S32768x32x2x1, .f32⟩
  | 16 => ⟨S32768x32x2x16, .f32⟩
  | 17 => ⟨S32768x1024, .f32⟩
  | 18 => ⟨S32768x1024, .f32⟩
  | 19 => ⟨S32768x64x2x8, .f32⟩
  | 20 => ⟨S_, .f32⟩
  | 21 => ⟨S32768x64x2, .f32⟩
  | 22 => ⟨S_, .f32⟩
  | 23 => ⟨S32768x64x2, .f32⟩
  | 24 => ⟨S32768x64x2, .f32⟩
  | 25 => ⟨S_, .f32⟩
  | 26 => ⟨S32768x64, .f32⟩
  | 27 => ⟨S_, .f32⟩
  | 28 => ⟨S32768x64, .f32⟩
  | 29 => ⟨S32768x64, .f32⟩
  | 30 => ⟨S32768x64x1, .f32⟩
  | 31 => ⟨S32768x64x2, .f32⟩
  | 32 => ⟨S32768x64x2, .f32⟩
  | 33 => ⟨S32768x64x2, .f32⟩
  | 34 => ⟨S_, .f32⟩
  | 35 => ⟨S32768x64, .f32⟩
  | 36 => ⟨S32768x64x1, .f32⟩
  | 37 => ⟨S32768x64x2, .f32⟩
  | 38 => ⟨S32768x64x2, .f32⟩
  | 39 => ⟨S32768x64x2x1, .f32⟩
  | 40 => ⟨S32768x64x2x8, .f32⟩
  | 41 => ⟨S32768x1024, .f32⟩
  | 42 => ⟨S32768x1024, .f32⟩
  | 43 => ⟨S32768x128x2x4, .f32⟩
  | 44 => ⟨S_, .f32⟩
  | 45 => ⟨S32768x128x2, .f32⟩
  | 46 => ⟨S_, .f32⟩
  | 47 => ⟨S32768x128x2, .f32⟩
  | 48 => ⟨S32768x128x2, .f32⟩
  | 49 => ⟨S_, .f32⟩
  | 50 => ⟨S32768x128, .f32⟩
  | 51 => ⟨S_, .f32⟩
  | 52 => ⟨S32768x128, .f32⟩
  | 53 => ⟨S32768x128, .f32⟩
  | 54 => ⟨S32768x128x1, .f32⟩
  | 55 => ⟨S32768x128x2, .f32⟩
  | 56 => ⟨S32768x128x2, .f32⟩
  | 57 => ⟨S32768x128x2, .f32⟩
  | 58 => ⟨S_, .f32⟩
  | 59 => ⟨S32768x128, .f32⟩
  | 60 => ⟨S32768x128x1, .f32⟩
  | 61 => ⟨S32768x128x2, .f32⟩
  | 62 => ⟨S32768x128x2, .f32⟩
  | 63 => ⟨S32768x128x2x1, .f32⟩
  | 64 => ⟨S32768x128x2x4, .f32⟩
  | 65 => ⟨S32768x1024, .f32⟩
  | 66 => ⟨S32768x1024, .f32⟩
  | 67 => ⟨S32768x256x2x2, .f32⟩
  | 68 => ⟨S_, .f32⟩
  | 69 => ⟨S32768x256x2, .f32⟩
  | 70 => ⟨S_, .f32⟩
  | 71 => ⟨S32768x256x2, .f32⟩
  | 72 => ⟨S32768x256x2, .f32⟩
  | 73 => ⟨S_, .f32⟩
  | 74 => ⟨S32768x256, .f32⟩
  | 75 => ⟨S_, .f32⟩
  | 76 => ⟨S32768x256, .f32⟩
  | 77 => ⟨S32768x256, .f32⟩
  | 78 => ⟨S32768x256x1, .f32⟩
  | 79 => ⟨S32768x256x2, .f32⟩
  | 80 => ⟨S32768x256x2, .f32⟩
  | 81 => ⟨S32768x256x2, .f32⟩
  | 82 => ⟨S_, .f32⟩
  | 83 => ⟨S32768x256, .f32⟩
  | 84 => ⟨S32768x256x1, .f32⟩
  | 85 => ⟨S32768x256x2, .f32⟩
  | 86 => ⟨S32768x256x2, .f32⟩
  | 87 => ⟨S32768x256x2x1, .f32⟩
  | 88 => ⟨S32768x256x2x2, .f32⟩
  | 89 => ⟨S32768x1024, .f32⟩
  | 90 => ⟨S32768x1024, .f32⟩
  | 91 => ⟨S32768x512x2x1, .f32⟩
  | 92 => ⟨S_, .f32⟩
  | 93 => ⟨S32768x512x2, .f32⟩
  | 94 => ⟨S_, .f32⟩
  | 95 => ⟨S32768x512x2, .f32⟩
  | 96 => ⟨S32768x512x2, .f32⟩
  | 97 => ⟨S_, .f32⟩
  | 98 => ⟨S32768x512, .f32⟩
  | 99 => ⟨S_, .f32⟩
  | 100 => ⟨S32768x512, .f32⟩
  | 101 => ⟨S32768x512, .f32⟩
  | 102 => ⟨S32768x512x1, .f32⟩
  | 103 => ⟨S32768x512x2, .f32⟩
  | 104 => ⟨S32768x512x2, .f32⟩
  | 105 => ⟨S32768x512x2, .f32⟩
  | 106 => ⟨S_, .f32⟩
  | 107 => ⟨S32768x512, .f32⟩
  | 108 => ⟨S32768x512x1, .f32⟩
  | 109 => ⟨S32768x512x2, .f32⟩
  | 110 => ⟨S32768x512x2, .f32⟩
  | 111 => ⟨S32768x512x2x1, .f32⟩
  | 112 => ⟨S32768x1024, .f32⟩
  | 113 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_cst_2 : Ref sig .tc := ⟨.hbm, 9, rfl⟩
abbrev main_v5 : Ref sig .tc := ⟨.hbm, 10, rfl⟩
abbrev main_cst_3 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_4 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_5 : Ref sig .tc := ⟨.hbm, 28, rfl⟩
abbrev main_v21 : Ref sig .tc := ⟨.hbm, 29, rfl⟩
abbrev main_cst_6 : Ref sig .tc := ⟨.hbm, 30, rfl⟩
abbrev main_v22 : Ref sig .tc := ⟨.hbm, 31, rfl⟩
abbrev main_v23 : Ref sig .tc := ⟨.hbm, 32, rfl⟩
abbrev main_cst_7 : Ref sig .tc := ⟨.hbm, 33, rfl⟩
abbrev main_v24 : Ref sig .tc := ⟨.hbm, 34, rfl⟩
abbrev main_cst_8 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_9 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_10 : Ref sig .tc := ⟨.hbm, 52, rfl⟩
abbrev main_v40 : Ref sig .tc := ⟨.hbm, 53, rfl⟩
abbrev main_cst_11 : Ref sig .tc := ⟨.hbm, 54, rfl⟩
abbrev main_v41 : Ref sig .tc := ⟨.hbm, 55, rfl⟩
abbrev main_v42 : Ref sig .tc := ⟨.hbm, 56, rfl⟩
abbrev main_cst_12 : Ref sig .tc := ⟨.hbm, 57, rfl⟩
abbrev main_v43 : Ref sig .tc := ⟨.hbm, 58, rfl⟩
abbrev main_cst_13 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_14 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_15 : Ref sig .tc := ⟨.hbm, 76, rfl⟩
abbrev main_v59 : Ref sig .tc := ⟨.hbm, 77, rfl⟩
abbrev main_cst_16 : Ref sig .tc := ⟨.hbm, 78, rfl⟩
abbrev main_v60 : Ref sig .tc := ⟨.hbm, 79, rfl⟩
abbrev main_v61 : Ref sig .tc := ⟨.hbm, 80, rfl⟩
abbrev main_cst_17 : Ref sig .tc := ⟨.hbm, 81, rfl⟩
abbrev main_v62 : Ref sig .tc := ⟨.hbm, 82, rfl⟩
abbrev main_cst_18 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_19 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_20 : Ref sig .tc := ⟨.hbm, 100, rfl⟩
abbrev main_v78 : Ref sig .tc := ⟨.hbm, 101, rfl⟩
abbrev main_cst_21 : Ref sig .tc := ⟨.hbm, 102, rfl⟩
abbrev main_v79 : Ref sig .tc := ⟨.hbm, 103, rfl⟩
abbrev main_v80 : Ref sig .tc := ⟨.hbm, 104, rfl⟩
abbrev main_cst_22 : Ref sig .tc := ⟨.hbm, 105, rfl⟩
abbrev main_v81 : Ref sig .tc := ⟨.hbm, 106, rfl⟩
abbrev main_cst_23 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_24 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_cst_25 : Ref sig .tc := ⟨.hbm, 124, rfl⟩
abbrev main_v97 : Ref sig .tc := ⟨.hbm, 125, rfl⟩
abbrev main_cst_26 : Ref sig .tc := ⟨.hbm, 126, rfl⟩
abbrev main_v98 : Ref sig .tc := ⟨.hbm, 127, rfl⟩
abbrev main_v99 : Ref sig .tc := ⟨.hbm, 128, rfl⟩
abbrev main_cst_27 : Ref sig .tc := ⟨.hbm, 129, rfl⟩
abbrev main_v100 : Ref sig .tc := ⟨.hbm, 130, rfl⟩
abbrev main_cst_28 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_29 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_cst_30 : Ref sig .tc := ⟨.hbm, 148, rfl⟩
abbrev main_v116 : Ref sig .tc := ⟨.hbm, 149, rfl⟩
abbrev main_cst_31 : Ref sig .tc := ⟨.hbm, 150, rfl⟩
abbrev main_v117 : Ref sig .tc := ⟨.hbm, 151, rfl⟩
abbrev main_v118 : Ref sig .tc := ⟨.hbm, 152, rfl⟩
abbrev main_cst_32 : Ref sig .tc := ⟨.hbm, 153, rfl⟩
abbrev main_v119 : Ref sig .tc := ⟨.hbm, 154, rfl⟩
abbrev main_cst_33 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_cst_34 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_cst_35 : Ref sig .tc := ⟨.hbm, 172, rfl⟩
abbrev main_v135 : Ref sig .tc := ⟨.hbm, 173, rfl⟩
abbrev main_cst_36 : Ref sig .tc := ⟨.hbm, 174, rfl⟩
abbrev main_v136 : Ref sig .tc := ⟨.hbm, 175, rfl⟩
abbrev main_v137 : Ref sig .tc := ⟨.hbm, 176, rfl⟩
abbrev main_cst_37 : Ref sig .tc := ⟨.hbm, 177, rfl⟩
abbrev main_v138 : Ref sig .tc := ⟨.hbm, 178, rfl⟩
abbrev main_cst_38 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_cst_39 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_cst_40 : Ref sig .tc := ⟨.hbm, 196, rfl⟩
abbrev main_v154 : Ref sig .tc := ⟨.hbm, 197, rfl⟩
abbrev main_cst_41 : Ref sig .tc := ⟨.hbm, 198, rfl⟩
abbrev main_v155 : Ref sig .tc := ⟨.hbm, 199, rfl⟩
abbrev main_v156 : Ref sig .tc := ⟨.hbm, 200, rfl⟩
abbrev main_cst_42 : Ref sig .tc := ⟨.hbm, 201, rfl⟩
abbrev main_v157 : Ref sig .tc := ⟨.hbm, 202, rfl⟩
abbrev main_cst_43 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_cst_44 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_cst_45 : Ref sig .tc := ⟨.hbm, 220, rfl⟩
abbrev main_v173 : Ref sig .tc := ⟨.hbm, 221, rfl⟩
abbrev main_cst_46 : Ref sig .tc := ⟨.hbm, 222, rfl⟩
abbrev main_v174 : Ref sig .tc := ⟨.hbm, 223, rfl⟩
abbrev main_v175 : Ref sig .tc := ⟨.hbm, 224, rfl⟩
abbrev main_cst_47 : Ref sig .tc := ⟨.hbm, 225, rfl⟩
abbrev main_v176 : Ref sig .tc := ⟨.hbm, 226, rfl⟩
abbrev main_cst_48 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_cst_49 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩

abbrev nD : Nat := 1
abbrev τ : Topo := Topo.v7x

variable {F : FTy → Type} [FloatOps F]

class Facts₀ : Prop where
  bcast_S_S32768x1024 : S_.BroadcastsInDim S32768x1024 (![] : Fin 0 → Fin S32768x1024.rank)
  shapeCasts_S32768x1024_S32768x1x2x512 : S32768x1024.ShapeCasts S32768x1x2x512
  reducesTo_S32768x1x2x512_S32768x1x2_d3 : S32768x1x2x512.ReducesTo [3] S32768x1x2
  h_S_ : 0 < S_.numel
  bcast_S_S32768x1x2 : S_.BroadcastsInDim S32768x1x2 (![] : Fin 0 → Fin S32768x1x2.rank)
  reducesTo_S32768x1x2_S32768x1_d2 : S32768x1x2.ReducesTo [2] S32768x1
  bcast_S_S32768x1 : S_.BroadcastsInDim S32768x1 (![] : Fin 0 → Fin S32768x1.rank)
  bcast_S32768x1_S32768x1x1_0_1 : S32768x1.BroadcastsInDim S32768x1x1 (![0, 1] : Fin 2 → Fin S32768x1x1.rank)
  bcast_S32768x1x1_S32768x1x2_0_1_2 : S32768x1x1.BroadcastsInDim S32768x1x2 (![0, 1, 2] : Fin 3 → Fin S32768x1x2.rank)
  bcast_S32768x1x2_S32768x1x2x1_0_1_2 : S32768x1x2.BroadcastsInDim S32768x1x2x1 (![0, 1, 2] : Fin 3 → Fin S32768x1x2x1.rank)
  bcast_S32768x1x2x1_S32768x1x2x512_0_1_2_3 : S32768x1x2x1.BroadcastsInDim S32768x1x2x512 (![0, 1, 2, 3] : Fin 4 → Fin S32768x1x2x512.rank)
  shapeCasts_S32768x1x2x512_S32768x1024 : S32768x1x2x512.ShapeCasts S32768x1024
  shapeCasts_S32768x1024_S32768x2x2x256 : S32768x1024.ShapeCasts S32768x2x2x256
  reducesTo_S32768x2x2x256_S32768x2x2_d3 : S32768x2x2x256.ReducesTo [3] S32768x2x2
  bcast_S_S32768x2x2 : S_.BroadcastsInDim S32768x2x2 (![] : Fin 0 → Fin S32768x2x2.rank)
  reducesTo_S32768x2x2_S32768x2_d2 : S32768x2x2.ReducesTo [2] S32768x2
  bcast_S_S32768x2 : S_.BroadcastsInDim S32768x2 (![] : Fin 0 → Fin S32768x2.rank)
  bcast_S32768x2_S32768x2x1_0_1 : S32768x2.BroadcastsInDim S32768x2x1 (![0, 1] : Fin 2 → Fin S32768x2x1.rank)
  bcast_S32768x2x1_S32768x2x2_0_1_2 : S32768x2x1.BroadcastsInDim S32768x2x2 (![0, 1, 2] : Fin 3 → Fin S32768x2x2.rank)
  bcast_S32768x2x2_S32768x2x2x1_0_1_2 : S32768x2x2.BroadcastsInDim S32768x2x2x1 (![0, 1, 2] : Fin 3 → Fin S32768x2x2x1.rank)
  bcast_S32768x2x2x1_S32768x2x2x256_0_1_2_3 : S32768x2x2x1.BroadcastsInDim S32768x2x2x256 (![0, 1, 2, 3] : Fin 4 → Fin S32768x2x2x256.rank)
  shapeCasts_S32768x2x2x256_S32768x1024 : S32768x2x2x256.ShapeCasts S32768x1024
  shapeCasts_S32768x1024_S32768x4x2x128 : S32768x1024.ShapeCasts S32768x4x2x128
  reducesTo_S32768x4x2x128_S32768x4x2_d3 : S32768x4x2x128.ReducesTo [3] S32768x4x2
  bcast_S_S32768x4x2 : S_.BroadcastsInDim S32768x4x2 (![] : Fin 0 → Fin S32768x4x2.rank)
  reducesTo_S32768x4x2_S32768x4_d2 : S32768x4x2.ReducesTo [2] S32768x4
  bcast_S_S32768x4 : S_.BroadcastsInDim S32768x4 (![] : Fin 0 → Fin S32768x4.rank)
  bcast_S32768x4_S32768x4x1_0_1 : S32768x4.BroadcastsInDim S32768x4x1 (![0, 1] : Fin 2 → Fin S32768x4x1.rank)
  bcast_S32768x4x1_S32768x4x2_0_1_2 : S32768x4x1.BroadcastsInDim S32768x4x2 (![0, 1, 2] : Fin 3 → Fin S32768x4x2.rank)
  bcast_S32768x4x2_S32768x4x2x1_0_1_2 : S32768x4x2.BroadcastsInDim S32768x4x2x1 (![0, 1, 2] : Fin 3 → Fin S32768x4x2x1.rank)
  bcast_S32768x4x2x1_S32768x4x2x128_0_1_2_3 : S32768x4x2x1.BroadcastsInDim S32768x4x2x128 (![0, 1, 2, 3] : Fin 4 → Fin S32768x4x2x128.rank)
  shapeCasts_S32768x4x2x128_S32768x1024 : S32768x4x2x128.ShapeCasts S32768x1024
  shapeCasts_S32768x1024_S32768x8x2x64 : S32768x1024.ShapeCasts S32768x8x2x64
  reducesTo_S32768x8x2x64_S32768x8x2_d3 : S32768x8x2x64.ReducesTo [3] S32768x8x2
  bcast_S_S32768x8x2 : S_.BroadcastsInDim S32768x8x2 (![] : Fin 0 → Fin S32768x8x2.rank)
  reducesTo_S32768x8x2_S32768x8_d2 : S32768x8x2.ReducesTo [2] S32768x8
  bcast_S_S32768x8 : S_.BroadcastsInDim S32768x8 (![] : Fin 0 → Fin S32768x8.rank)
  bcast_S32768x8_S32768x8x1_0_1 : S32768x8.BroadcastsInDim S32768x8x1 (![0, 1] : Fin 2 → Fin S32768x8x1.rank)
  bcast_S32768x8x1_S32768x8x2_0_1_2 : S32768x8x1.BroadcastsInDim S32768x8x2 (![0, 1, 2] : Fin 3 → Fin S32768x8x2.rank)
  bcast_S32768x8x2_S32768x8x2x1_0_1_2 : S32768x8x2.BroadcastsInDim S32768x8x2x1 (![0, 1, 2] : Fin 3 → Fin S32768x8x2x1.rank)
  bcast_S32768x8x2x1_S32768x8x2x64_0_1_2_3 : S32768x8x2x1.BroadcastsInDim S32768x8x2x64 (![0, 1, 2, 3] : Fin 4 → Fin S32768x8x2x64.rank)
  shapeCasts_S32768x8x2x64_S32768x1024 : S32768x8x2x64.ShapeCasts S32768x1024
  shapeCasts_S32768x1024_S32768x16x2x32 : S32768x1024.ShapeCasts S32768x16x2x32
  reducesTo_S32768x16x2x32_S32768x16x2_d3 : S32768x16x2x32.ReducesTo [3] S32768x16x2
  bcast_S_S32768x16x2 : S_.BroadcastsInDim S32768x16x2 (![] : Fin 0 → Fin S32768x16x2.rank)
  reducesTo_S32768x16x2_S32768x16_d2 : S32768x16x2.ReducesTo [2] S32768x16
  bcast_S_S32768x16 : S_.BroadcastsInDim S32768x16 (![] : Fin 0 → Fin S32768x16.rank)
  bcast_S32768x16_S32768x16x1_0_1 : S32768x16.BroadcastsInDim S32768x16x1 (![0, 1] : Fin 2 → Fin S32768x16x1.rank)
  bcast_S32768x16x1_S32768x16x2_0_1_2 : S32768x16x1.BroadcastsInDim S32768x16x2 (![0, 1, 2] : Fin 3 → Fin S32768x16x2.rank)
  bcast_S32768x16x2_S32768x16x2x1_0_1_2 : S32768x16x2.BroadcastsInDim S32768x16x2x1 (![0, 1, 2] : Fin 3 → Fin S32768x16x2x1.rank)
  bcast_S32768x16x2x1_S32768x16x2x32_0_1_2_3 : S32768x16x2x1.BroadcastsInDim S32768x16x2x32 (![0, 1, 2, 3] : Fin 4 → Fin S32768x16x2x32.rank)
  shapeCasts_S32768x16x2x32_S32768x1024 : S32768x16x2x32.ShapeCasts S32768x1024
  shapeCasts_S32768x1024_S32768x32x2x16 : S32768x1024.ShapeCasts S32768x32x2x16
  reducesTo_S32768x32x2x16_S32768x32x2_d3 : S32768x32x2x16.ReducesTo [3] S32768x32x2
  bcast_S_S32768x32x2 : S_.BroadcastsInDim S32768x32x2 (![] : Fin 0 → Fin S32768x32x2.rank)
  reducesTo_S32768x32x2_S32768x32_d2 : S32768x32x2.ReducesTo [2] S32768x32
  bcast_S_S32768x32 : S_.BroadcastsInDim S32768x32 (![] : Fin 0 → Fin S32768x32.rank)
  bcast_S32768x32_S32768x32x1_0_1 : S32768x32.BroadcastsInDim S32768x32x1 (![0, 1] : Fin 2 → Fin S32768x32x1.rank)
  bcast_S32768x32x1_S32768x32x2_0_1_2 : S32768x32x1.BroadcastsInDim S32768x32x2 (![0, 1, 2] : Fin 3 → Fin S32768x32x2.rank)
  bcast_S32768x32x2_S32768x32x2x1_0_1_2 : S32768x32x2.BroadcastsInDim S32768x32x2x1 (![0, 1, 2] : Fin 3 → Fin S32768x32x2x1.rank)
  bcast_S32768x32x2x1_S32768x32x2x16_0_1_2_3 : S32768x32x2x1.BroadcastsInDim S32768x32x2x16 (![0, 1, 2, 3] : Fin 4 → Fin S32768x32x2x16.rank)
  shapeCasts_S32768x32x2x16_S32768x1024 : S32768x32x2x16.ShapeCasts S32768x1024
  shapeCasts_S32768x1024_S32768x64x2x8 : S32768x1024.ShapeCasts S32768x64x2x8
  reducesTo_S32768x64x2x8_S32768x64x2_d3 : S32768x64x2x8.ReducesTo [3] S32768x64x2
  bcast_S_S32768x64x2 : S_.BroadcastsInDim S32768x64x2 (![] : Fin 0 → Fin S32768x64x2.rank)
  reducesTo_S32768x64x2_S32768x64_d2 : S32768x64x2.ReducesTo [2] S32768x64
  bcast_S_S32768x64 : S_.BroadcastsInDim S32768x64 (![] : Fin 0 → Fin S32768x64.rank)
  bcast_S32768x64_S32768x64x1_0_1 : S32768x64.BroadcastsInDim S32768x64x1 (![0, 1] : Fin 2 → Fin S32768x64x1.rank)
  bcast_S32768x64x1_S32768x64x2_0_1_2 : S32768x64x1.BroadcastsInDim S32768x64x2 (![0, 1, 2] : Fin 3 → Fin S32768x64x2.rank)
  bcast_S32768x64x2_S32768x64x2x1_0_1_2 : S32768x64x2.BroadcastsInDim S32768x64x2x1 (![0, 1, 2] : Fin 3 → Fin S32768x64x2x1.rank)
  bcast_S32768x64x2x1_S32768x64x2x8_0_1_2_3 : S32768x64x2x1.BroadcastsInDim S32768x64x2x8 (![0, 1, 2, 3] : Fin 4 → Fin S32768x64x2x8.rank)
  shapeCasts_S32768x64x2x8_S32768x1024 : S32768x64x2x8.ShapeCasts S32768x1024
  shapeCasts_S32768x1024_S32768x128x2x4 : S32768x1024.ShapeCasts S32768x128x2x4
  reducesTo_S32768x128x2x4_S32768x128x2_d3 : S32768x128x2x4.ReducesTo [3] S32768x128x2
  bcast_S_S32768x128x2 : S_.BroadcastsInDim S32768x128x2 (![] : Fin 0 → Fin S32768x128x2.rank)
  reducesTo_S32768x128x2_S32768x128_d2 : S32768x128x2.ReducesTo [2] S32768x128
  bcast_S_S32768x128 : S_.BroadcastsInDim S32768x128 (![] : Fin 0 → Fin S32768x128.rank)
  bcast_S32768x128_S32768x128x1_0_1 : S32768x128.BroadcastsInDim S32768x128x1 (![0, 1] : Fin 2 → Fin S32768x128x1.rank)
  bcast_S32768x128x1_S32768x128x2_0_1_2 : S32768x128x1.BroadcastsInDim S32768x128x2 (![0, 1, 2] : Fin 3 → Fin S32768x128x2.rank)
  bcast_S32768x128x2_S32768x128x2x1_0_1_2 : S32768x128x2.BroadcastsInDim S32768x128x2x1 (![0, 1, 2] : Fin 3 → Fin S32768x128x2x1.rank)
  bcast_S32768x128x2x1_S32768x128x2x4_0_1_2_3 : S32768x128x2x1.BroadcastsInDim S32768x128x2x4 (![0, 1, 2, 3] : Fin 4 → Fin S32768x128x2x4.rank)
  shapeCasts_S32768x128x2x4_S32768x1024 : S32768x128x2x4.ShapeCasts S32768x1024
  shapeCasts_S32768x1024_S32768x256x2x2 : S32768x1024.ShapeCasts S32768x256x2x2
  reducesTo_S32768x256x2x2_S32768x256x2_d3 : S32768x256x2x2.ReducesTo [3] S32768x256x2
  bcast_S_S32768x256x2 : S_.BroadcastsInDim S32768x256x2 (![] : Fin 0 → Fin S32768x256x2.rank)
  reducesTo_S32768x256x2_S32768x256_d2 : S32768x256x2.ReducesTo [2] S32768x256
  bcast_S_S32768x256 : S_.BroadcastsInDim S32768x256 (![] : Fin 0 → Fin S32768x256.rank)
  bcast_S32768x256_S32768x256x1_0_1 : S32768x256.BroadcastsInDim S32768x256x1 (![0, 1] : Fin 2 → Fin S32768x256x1.rank)
  bcast_S32768x256x1_S32768x256x2_0_1_2 : S32768x256x1.BroadcastsInDim S32768x256x2 (![0, 1, 2] : Fin 3 → Fin S32768x256x2.rank)
  bcast_S32768x256x2_S32768x256x2x1_0_1_2 : S32768x256x2.BroadcastsInDim S32768x256x2x1 (![0, 1, 2] : Fin 3 → Fin S32768x256x2x1.rank)
  bcast_S32768x256x2x1_S32768x256x2x2_0_1_2_3 : S32768x256x2x1.BroadcastsInDim S32768x256x2x2 (![0, 1, 2, 3] : Fin 4 → Fin S32768x256x2x2.rank)
  shapeCasts_S32768x256x2x2_S32768x1024 : S32768x256x2x2.ShapeCasts S32768x1024
  shapeCasts_S32768x1024_S32768x512x2x1 : S32768x1024.ShapeCasts S32768x512x2x1
  reducesTo_S32768x512x2x1_S32768x512x2_d3 : S32768x512x2x1.ReducesTo [3] S32768x512x2
  bcast_S_S32768x512x2 : S_.BroadcastsInDim S32768x512x2 (![] : Fin 0 → Fin S32768x512x2.rank)
  reducesTo_S32768x512x2_S32768x512_d2 : S32768x512x2.ReducesTo [2] S32768x512
  bcast_S_S32768x512 : S_.BroadcastsInDim S32768x512 (![] : Fin 0 → Fin S32768x512.rank)
  bcast_S32768x512_S32768x512x1_0_1 : S32768x512.BroadcastsInDim S32768x512x1 (![0, 1] : Fin 2 → Fin S32768x512x1.rank)
  bcast_S32768x512x1_S32768x512x2_0_1_2 : S32768x512x1.BroadcastsInDim S32768x512x2 (![0, 1, 2] : Fin 3 → Fin S32768x512x2.rank)
  bcast_S32768x512x2_S32768x512x2x1_0_1_2 : S32768x512x2.BroadcastsInDim S32768x512x2x1 (![0, 1, 2] : Fin 3 → Fin S32768x512x2x1.rank)
  shapeCasts_S32768x512x2x1_S32768x1024 : S32768x512x2x1.ShapeCasts S32768x1024

variable [Facts₀]

class Facts : Prop extends Facts₀ where

variable [Facts]
-- ==== Proof.LibTreeLayout.lean ====
/-
  A row of length N = n·2·e seen as n groups of two halves of e entries each: entry (k, j, d) of the
  grouped view [A, n, 2, e] is column (k·2 + j)·e + d of the flat view [A, N]. This file reads, at indices written
  by coordinates, the layout operations that move between the flat view, the grouped view, the per-half
  array [A, n, 2] and the per-group array [A, n] — for a vector program's operations (shape casts, broadcasts)
  and for a host program's (broadcast_in_dim) — at any extents A, n, e.
-/
import Idealize.ShloMosaic.Lib.ValueIdx
import Idealize.ShloMosaic.Lib.Pipeline.Value
import Idealize.ShloMosaic.PureOps.Ideal.Laws

noncomputable section

namespace Cert.LibTree

open Idealize.ShloMosaic Idealize.ShloMosaic.ValueIdx

variable {α : Type} {A n e N : ℕ}

/-! ## The column of entry (k, j, d) -/

theorem cell_lt (hN : n * 2 * e = N) (k : Fin n) (j : Fin 2) (d : Fin e) : (k.val * 2 + j.val) * e + d.val < N := by
  subst hN
  have hk := k.isLt; have hj := j.isLt; have hd := d.isLt
  calc (k.val * 2 + j.val) * e + d.val < (k.val * 2 + j.val) * e + e := by omega
    _ = (k.val * 2 + j.val + 1) * e := by ring
    _ ≤ (n * 2) * e := Nat.mul_le_mul_right e (by omega)

/-- The column, in a row of length N = n·2·e, of the d-th entry of half j of group k. -/
def cell (hN : n * 2 * e = N) (k : Fin n) (j : Fin 2) (d : Fin e) : Fin N := ⟨(k.val * 2 + j.val) * e + d.val, cell_lt hN k j d⟩

/-- Every column is the column of such an entry: group c / (2e), half (c / e) mod 2, entry c mod e. -/
theorem exists_cell (hN : n * 2 * e = N) (c : Fin N) : ∃ (k : Fin n) (j : Fin 2) (d : Fin e), c = cell hN k j d := by
  have hc := c.isLt
  have he : 0 < e := by
    rcases Nat.eq_zero_or_pos e with h | h
    · subst h; rw [Nat.mul_zero] at hN; omega
    · exact h
  have h2e : 0 < e * 2 := by omega
  have hk : c.val / (e * 2) < n := by
    rw [Nat.div_lt_iff_lt_mul h2e]
    calc c.val < N := hc
      _ = n * (e * 2) := by rw [← hN]; ring
  refine ⟨⟨c.val / (e * 2), hk⟩, ⟨c.val / e % 2, Nat.mod_lt _ (by decide)⟩, ⟨c.val % e, Nat.mod_lt _ he⟩, Fin.ext ?_⟩
  show c.val = (c.val / (e * 2) * 2 + c.val / e % 2) * e + c.val % e
  rw [← Nat.div_div_eq_div_mul, Nat.div_add_mod', Nat.div_add_mod']

/-! ## Shape casts between the views -/

/-- The flat view cast to the grouped view reads, at (p, k, j, d), the flat array at row p and that entry's column. -/
theorem cast_in_apply (hN : n * 2 * e = N) (x : (⟨2, ![A, N]⟩ : Shape).Idx → α)
    (h : (⟨2, ![A, N]⟩ : Shape).ShapeCasts ⟨4, ![A, n, 2, e]⟩) (p : Fin A) (k : Fin n) (j : Fin 2) (d : Fin e) :
    shapeCast ⟨4, ![A, n, 2, e]⟩ x h (ix4 p k j d) = x (ix2 p (cell hN k j d)) :=
  shapeCast_apply x h _ _ (by
    rw [Shape.rowMajor_val_two, Shape.rowMajor_val_four]
    show p.val * N + ((k.val * 2 + j.val) * e + d.val) = ((p.val * n + k.val) * 2 + j.val) * e + d.val
    subst hN; ring)

/-- The grouped view cast back to the flat view reads, at row p and an entry's column, the grouped array at that entry. -/
theorem cast_out_apply (hN : n * 2 * e = N) (y : (⟨4, ![A, n, 2, e]⟩ : Shape).Idx → α)
    (h : (⟨4, ![A, n, 2, e]⟩ : Shape).ShapeCasts ⟨2, ![A, N]⟩) (p : Fin A) (k : Fin n) (j : Fin 2) (d : Fin e) :
    shapeCast ⟨2, ![A, N]⟩ y h (ix2 p (cell hN k j d)) = y (ix4 p k j d) :=
  shapeCast_apply y h _ _ (by
    rw [Shape.rowMajor_val_two, Shape.rowMajor_val_four]
    show ((p.val * n + k.val) * 2 + j.val) * e + d.val = p.val * N + ((k.val * 2 + j.val) * e + d.val)
    subst hN; ring)

/-- A per-group array [A, n] given a trailing unit axis. -/
theorem cast_group_unit_apply (x : (⟨2, ![A, n]⟩ : Shape).Idx → α)
    (h : (⟨2, ![A, n]⟩ : Shape).ShapeCasts ⟨3, ![A, n, 1]⟩) (p : Fin A) (k : Fin n) (u : Fin 1) :
    shapeCast ⟨3, ![A, n, 1]⟩ x h (ix3 p k u) = x (ix2 p k) :=
  shapeCast_apply x h _ _ (by
    have hu : u.val = 0 := by omega
    rw [Shape.rowMajor_val_two, Shape.rowMajor_val_three]
    show p.val * n + k.val = (p.val * n + k.val) * 1 + u.val
    rw [hu, Nat.mul_one, Nat.add_zero])

/-- A per-half array [A, n, 2] given a trailing unit axis. -/
theorem cast_half_unit_apply (x : (⟨3, ![A, n, 2]⟩ : Shape).Idx → α)
    (h : (⟨3, ![A, n, 2]⟩ : Shape).ShapeCasts ⟨4, ![A, n, 2, 1]⟩) (p : Fin A) (k : Fin n) (j : Fin 2) (u : Fin 1) :
    shapeCast ⟨4, ![A, n, 2, 1]⟩ x h (ix4 p k j u) = x (ix3 p k j) :=
  shapeCast_apply x h _ _ (by
    have hu : u.val = 0 := by omega
    rw [Shape.rowMajor_val_three, Shape.rowMajor_val_four]
    show (p.val * n + k.val) * 2 + j.val = ((p.val * n + k.val) * 2 + j.val) * 1 + u.val
    rw [hu, Nat.mul_one, Nat.add_zero])

/-! ## A vector program's broadcasts along the trailing axis -/

/-- [A, n, 1] broadcast to [A, n, 2]: both halves of a group read the group's one value. -/
theorem bcast_group_apply (x : (⟨3, ![A, n, 1]⟩ : Shape).Idx → α)
    (h : (⟨3, ![A, n, 1]⟩ : Shape).Broadcasts ⟨3, ![A, n, 2]⟩) (p : Fin A) (k : Fin n) (j : Fin 2) :
    broadcastTo ⟨3, ![A, n, 2]⟩ x h (ix3 p k j) = x (ix3 p k (0 : Fin 1)) := by
  refine broadcastTo_apply x h (ix3 p k j) (ix3 p k (0 : Fin 1)) fun ax => ?_
  match ax with
  | ⟨0, _⟩ =>
    show p.val = if A = 1 then 0 else p.val
    split
    · have := p.isLt; omega
    · rfl
  | ⟨1, _⟩ =>
    show k.val = if n = 1 then 0 else k.val
    split
    · have := k.isLt; omega
    · rfl
  | ⟨2, _⟩ => rfl

/-- [A, n, 2, 1] broadcast to [A, n, 2, e]: every entry of a half reads the half's one value. -/
theorem bcast_half_apply (x : (⟨4, ![A, n, 2, 1]⟩ : Shape).Idx → α)
    (h : (⟨4, ![A, n, 2, 1]⟩ : Shape).Broadcasts ⟨4, ![A, n, 2, e]⟩) (p : Fin A) (k : Fin n) (j : Fin 2) (d : Fin e) :
    broadcastTo ⟨4, ![A, n, 2, e]⟩ x h (ix4 p k j d) = x (ix4 p k j (0 : Fin 1)) := by
  refine broadcastTo_apply x h (ix4 p k j d) (ix4 p k j (0 : Fin 1)) fun ax => ?_
  match ax with
  | ⟨0, _⟩ =>
    show p.val = if A = 1 then 0 else p.val
    split
    · have := p.isLt; omega
    · rfl
  | ⟨1, _⟩ =>
    show k.val = if n = 1 then 0 else k.val
    split
    · have := k.isLt; omega
    · rfl
  | ⟨2, _⟩ => rfl
  | ⟨3, _⟩ => rfl

/-! ## A host program's broadcasts -/

/-- [A, n] to [A, n, 1] along axes 0, 1. -/
theorem hbcast_group_unit_apply (x : (⟨2, ![A, n]⟩ : Shape).Idx → α)
    (h : (⟨2, ![A, n]⟩ : Shape).BroadcastsInDim ⟨3, ![A, n, 1]⟩ ![0, 1]) (p : Fin A) (k : Fin n) (u : Fin 1) :
    broadcastInDim ⟨3, ![A, n, 1]⟩ ![0, 1] h x (ix3 p k u) = x (ix2 p k) := by
  refine broadcastInDim_apply _ h x (ix3 p k u) (ix2 p k) fun ax => ?_
  match ax with
  | ⟨0, _⟩ =>
    show p.val = if A = 1 then 0 else p.val
    split
    · have := p.isLt; omega
    · rfl
  | ⟨1, _⟩ =>
    show k.val = if n = 1 then 0 else k.val
    split
    · have := k.isLt; omega
    · rfl

/-- [A, n, 1] to [A, n, 2] along axes 0, 1, 2. -/
theorem hbcast_group_apply (x : (⟨3, ![A, n, 1]⟩ : Shape).Idx → α)
    (h : (⟨3, ![A, n, 1]⟩ : Shape).BroadcastsInDim ⟨3, ![A, n, 2]⟩ ![0, 1, 2]) (p : Fin A) (k : Fin n) (j : Fin 2) :
    broadcastInDim ⟨3, ![A, n, 2]⟩ ![0, 1, 2] h x (ix3 p k j) = x (ix3 p k (0 : Fin 1)) := by
  refine broadcastInDim_apply _ h x (ix3 p k j) (ix3 p k (0 : Fin 1)) fun ax => ?_
  match ax with
  | ⟨0, _⟩ =>
    show p.val = if A = 1 then 0 else p.val
    split
    · have := p.isLt; omega
    · rfl
  | ⟨1, _⟩ =>
    show k.val = if n = 1 then 0 else k.val
    split
    · have := k.isLt; omega
    · rfl
  | ⟨2, _⟩ => rfl

/-- [A, n, 2] to [A, n, 2, 1] along axes 0, 1, 2. -/
theorem hbcast_half_unit_apply (x : (⟨3, ![A, n, 2]⟩ : Shape).Idx → α)
    (h : (⟨3, ![A, n, 2]⟩ : Shape).BroadcastsInDim ⟨4, ![A, n, 2, 1]⟩ ![0, 1, 2]) (p : Fin A) (k : Fin n) (j : Fin 2) (u : Fin 1) :
    broadcastInDim ⟨4, ![A, n, 2, 1]⟩ ![0, 1, 2] h x (ix4 p k j u) = x (ix3 p k j) := by
  refine broadcastInDim_apply _ h x (ix4 p k j u) (ix3 p k j) fun ax => ?_
  match ax with
  | ⟨0, _⟩ =>
    show p.val = if A = 1 then 0 else p.val
    split
    · have := p.isLt; omega
    · rfl
  | ⟨1, _⟩ =>
    show k.val = if n = 1 then 0 else k.val
    split
    · have := k.isLt; omega
    · rfl
  | ⟨2, _⟩ => rfl

/-- [A, n, 2, 1] to [A, n, 2, e] along axes 0, 1, 2, 3. -/
theorem hbcast_half_apply (x : (⟨4, ![A, n, 2, 1]⟩ : Shape).Idx → α)
    (h : (⟨4, ![A, n, 2, 1]⟩ : Shape).BroadcastsInDim ⟨4, ![A, n, 2, e]⟩ ![0, 1, 2, 3]) (p : Fin A) (k : Fin n) (j : Fin 2) (d : Fin e) :
    broadcastInDim ⟨4, ![A, n, 2, e]⟩ ![0, 1, 2, 3] h x (ix4 p k j d) = x (ix4 p k j (0 : Fin 1)) := by
  refine broadcastInDim_apply _ h x (ix4 p k j d) (ix4 p k j (0 : Fin 1)) fun ax => ?_
  match ax with
  | ⟨0, _⟩ =>
    show p.val = if A = 1 then 0 else p.val
    split
    · have := p.isLt; omega
    · rfl
  | ⟨1, _⟩ =>
    show k.val = if n = 1 then 0 else k.val
    split
    · have := k.isLt; omega
    · rfl
  | ⟨2, _⟩ => rfl
  | ⟨3, _⟩ => rfl

end Cert.LibTree

end
-- ==== Proof.LibTreeReduce.lean ====
/-
  The one-axis reductions of the grouped view of a row — [A, n, 2, e]: n groups of two halves of e entries — read at
  coordinates, at the exact (extended-real) reading: a sum over a half's e entries at (p, k, j), and a sum or a maximum
  over a group's two halves at (p, k); each for a vector program's multi-reduction (a sum is the plain sum, a maximum
  the fold of max from the accumulator's value) and for a host program's reduce (a sum is the initial value plus the
  sum, a maximum the fold of max from the initial value), at any extents A, n, e.
-/
import proofs.«117842_j56023553409032_1_alg».proof.Proof.LibTreeLayout

noncomputable section

namespace Cert.LibTree

open Idealize.ShloMosaic Idealize.ShloMosaic.ValueIdx

variable {A n e N : ℕ}

/-! ## One-axis reductions read at coordinates -/

/-- Entry d put back on the last axis of the per-half index (p, k, j). -/
theorem lift_e (h : (⟨4, ![A, n, 2, e]⟩ : Shape).Reduces [3] ⟨3, ![A, n, 2]⟩) (p : Fin A) (k : Fin n) (j : Fin 2) (d : Fin e) :
    h.lift (ix3 p k j) d = ix4 p k j d := by
  funext c; apply Fin.ext
  match c with
  | ⟨0, _⟩ => rfl
  | ⟨1, _⟩ => rfl
  | ⟨2, _⟩ => rfl
  | ⟨3, _⟩ => rfl

/-- Half j put back on the last axis of the per-group index (p, k). -/
theorem lift_2 (h : (⟨3, ![A, n, 2]⟩ : Shape).Reduces [2] ⟨2, ![A, n]⟩) (p : Fin A) (k : Fin n) (j : Fin 2) :
    h.lift (ix2 p k) j = ix3 p k j := by
  funext c; apply Fin.ext
  match c with
  | ⟨0, _⟩ => rfl
  | ⟨1, _⟩ => rfl
  | ⟨2, _⟩ => rfl

/-- A vector sum over a half's entries. -/
theorem ksum_e_apply (src : FVec Ideal ⟨4, ![A, n, 2, e]⟩ .f32) (acc : BitVec 32)
    (h : (⟨4, ![A, n, 2, e]⟩ : Shape).Reduces [3] ⟨3, ![A, n, 2]⟩) (hφ : FKind.Formats .f32)
    (hacc : acc = FKind.add.neutral .f32 hφ) (p : Fin A) (k : Fin n) (j : Fin 2) :
    multiReduction .add [3] ⟨3, ![A, n, 2]⟩ src acc h hφ hacc (ix3 p k j) = ∑ d : Fin e, src (ix4 p k j d) :=
  (Ideal.multiReduction_add_single src acc h hφ hacc (ix3 p k j)).trans
    (Finset.sum_congr rfl fun d _ => congrArg src (lift_e h p k j d))

/-- A vector sum over a group's two halves. -/
theorem ksum_2_apply (src : FVec Ideal ⟨3, ![A, n, 2]⟩ .f32) (acc : BitVec 32)
    (h : (⟨3, ![A, n, 2]⟩ : Shape).Reduces [2] ⟨2, ![A, n]⟩) (hφ : FKind.Formats .f32)
    (hacc : acc = FKind.add.neutral .f32 hφ) (p : Fin A) (k : Fin n) :
    multiReduction .add [2] ⟨2, ![A, n]⟩ src acc h hφ hacc (ix2 p k) = ∑ j : Fin 2, src (ix3 p k j) :=
  (Ideal.multiReduction_add_single src acc h hφ hacc (ix2 p k)).trans
    (Finset.sum_congr rfl fun j _ => congrArg src (lift_2 h p k j))

/-- A vector maximum over a group's two halves, from the accumulator's value. -/
theorem kmax_2_apply (src : FVec Ideal ⟨3, ![A, n, 2]⟩ .f32) (acc : BitVec 32)
    (h : (⟨3, ![A, n, 2]⟩ : Shape).Reduces [2] ⟨2, ![A, n]⟩) (hφ : FKind.Formats .f32)
    (hacc : acc = FKind.maximumf.neutral .f32 hφ) (p : Fin A) (k : Fin n) :
    multiReduction .maximumf [2] ⟨2, ![A, n]⟩ src acc h hφ hacc (ix2 p k)
      = (Finset.univ : Finset (Fin 2)).fold max (Ideal.ofBits .f32 acc) (fun j => src (ix3 p k j)) :=
  (Ideal.multiReduction_maximumf_single src acc h hφ hacc (ix2 p k)).trans
    (congrArg (fun f => (Finset.univ : Finset (Fin 2)).fold max (Ideal.ofBits .f32 acc) f)
      (funext fun j => congrArg src (lift_2 h p k j)))

/-- A host sum over a half's entries: the initial value plus the sum. -/
theorem hsum_e_apply {u : Shape} (x : FVec Ideal ⟨4, ![A, n, 2, e]⟩ .f32) (init : u.Idx → Ideal .f32)
    (h' : (⟨4, ![A, n, 2, e]⟩ : Shape).ReducesTo [3] ⟨3, ![A, n, 2]⟩) (hu : 0 < u.numel) (p : Fin A) (k : Fin n) (j : Fin 2) :
    Host.reduceAdd x init h' hu (ix3 p k j) = init (Shape.Idx.first hu) + ∑ d : Fin e, x (ix4 p k j d) := by
  have h : (⟨4, ![A, n, 2, e]⟩ : Shape).Reduces [3] ⟨3, ![A, n, 2]⟩ := ⟨h'.1, (show 0 < 3 from by decide), h'.2⟩
  refine (Ideal.hostReduceAdd_single h' h x (init (Shape.Idx.first hu)) (ix3 p k j)).trans ?_
  exact congrArg (fun s => init (Shape.Idx.first hu) + s) (Finset.sum_congr rfl fun d _ => congrArg x (lift_e h p k j d))

/-- A host sum over a group's two halves. -/
theorem hsum_2_apply {u : Shape} (x : FVec Ideal ⟨3, ![A, n, 2]⟩ .f32) (init : u.Idx → Ideal .f32)
    (h' : (⟨3, ![A, n, 2]⟩ : Shape).ReducesTo [2] ⟨2, ![A, n]⟩) (hu : 0 < u.numel) (p : Fin A) (k : Fin n) :
    Host.reduceAdd x init h' hu (ix2 p k) = init (Shape.Idx.first hu) + ∑ j : Fin 2, x (ix3 p k j) := by
  have h : (⟨3, ![A, n, 2]⟩ : Shape).Reduces [2] ⟨2, ![A, n]⟩ := ⟨h'.1, (show 0 < 2 from by decide), h'.2⟩
  refine (Ideal.hostReduceAdd_single h' h x (init (Shape.Idx.first hu)) (ix2 p k)).trans ?_
  exact congrArg (fun s => init (Shape.Idx.first hu) + s) (Finset.sum_congr rfl fun j _ => congrArg x (lift_2 h p k j))

/-- A host maximum over a group's two halves, from the initial value. -/
theorem hmax_2_apply {u : Shape} (x : FVec Ideal ⟨3, ![A, n, 2]⟩ .f32) (init : u.Idx → Ideal .f32)
    (h' : (⟨3, ![A, n, 2]⟩ : Shape).ReducesTo [2] ⟨2, ![A, n]⟩) (hu : 0 < u.numel) (p : Fin A) (k : Fin n) :
    Host.reduce FloatOps.maximumf x init h' hu (ix2 p k)
      = (Finset.univ : Finset (Fin 2)).fold max (init (Shape.Idx.first hu)) (fun j => x (ix3 p k j)) := by
  have h : (⟨3, ![A, n, 2]⟩ : Shape).Reduces [2] ⟨2, ![A, n]⟩ := ⟨h'.1, (show 0 < 2 from by decide), h'.2⟩
  refine (Host.reduce_eq_fold_single FloatOps.maximumf x init h' h hu (ix2 p k)).trans ?_
  exact congrArg (fun f => (Finset.univ : Finset (Fin 2)).fold max (init (Shape.Idx.first hu)) f)
    (funext fun j => congrArg x (lift_2 h p k j))

end Cert.LibTree

end
-- ==== Proof.LibTreeLevel.lean ====
/-
  One level of a balanced binary routing tree over a row of N = n·2·e logits, at the exact (extended-real)
  reading: the row is cut into n groups of two halves of e entries; each half's logit is the mean of its entries
  (their sum divided by the count); the two halves of a group get the softmax of their two logits (taken
  after subtracting the larger one, the maximum started from −∞); and every entry of the row gets the
  probability of its own half. The file states that level for a vector program (shape casts, multi-reductions,
  broadcasts) and for a host program (reshape, reduce, broadcast_in_dim), reads both at an index, and shows they
  are the same function of the row — whatever the extent of the leading (row) axis, which may differ between the
  two programs.
-/
import proofs.«117842_j56023553409032_1_alg».proof.Proof.LibTreeReduce

noncomputable section

namespace Cert.LibTree

open Idealize.ShloMosaic Idealize.ShloMosaic.ValueIdx

/-! ## The level as a function of the row's entries -/

/-- −∞, as both programs write it. -/
abbrev negInf : EReal := Ideal.ofBits .f32 0xFF800000#32

/-- A half's logit: the sum of its entries divided by the count. -/
def halfMean {e : ℕ} (cnt : EReal) (g : Fin e → EReal) : EReal := Ideal.div (∑ d : Fin e, g d) cnt

/-- The softmax of two logits at j: exp of the logit less the larger one, over the sum of the two such. -/
def soft2 (μ : Fin 2 → EReal) (j : Fin 2) : EReal :=
  Ideal.div (Ideal.exp (μ j - max negInf ((Finset.univ : Finset (Fin 2)).fold max negInf μ)))
    (∑ j' : Fin 2, Ideal.exp (μ j' - max negInf ((Finset.univ : Finset (Fin 2)).fold max negInf μ)))

/-! ## Pointwise operations at an index -/

theorem exp_apply {s : Shape} (a : FVec Ideal s .f32) (i : s.Idx) : exp a i = Ideal.exp (a i) := rfl
theorem hexp_apply {s : Shape} (a : FVec Ideal s .f32) (i : s.Idx) : Host.exp a i = Ideal.exp (a i) := rfl
theorem hdivf_apply {s : Shape} (a b : FVec Ideal s .f32) (i : s.Idx) : Host.divf a b i = Ideal.div (a i) (b i) := rfl
theorem hconst_apply {t : Shape} (h : (⟨0, ![]⟩ : Shape).BroadcastsInDim t ![]) (w : BitVec 32) (i : t.Idx) :
    broadcastInDim t ![] h (constant (F := Ideal) ⟨0, ![]⟩ .f32 w) i = Ideal.ofBits .f32 w := rfl

/-! ## The shape facts of one level, bundled -/

/-- What a vector program's level states of its shapes up to the probabilities. -/
structure KProbFacts (A n e N : ℕ) : Prop where
  h1 : (⟨2, ![A, N]⟩ : Shape).ShapeCasts ⟨4, ![A, n, 2, e]⟩
  h2 : (⟨4, ![A, n, 2, e]⟩ : Shape).Reduces [3] ⟨3, ![A, n, 2]⟩
  h3 : (⟨3, ![A, n, 2]⟩ : Shape).Reduces [2] ⟨2, ![A, n]⟩
  h4 : (⟨2, ![A, n]⟩ : Shape).ShapeCasts ⟨3, ![A, n, 1]⟩
  h5 : (⟨3, ![A, n, 1]⟩ : Shape).Broadcasts ⟨3, ![A, n, 2]⟩

/-- … and of spreading them back over the row. -/
structure KSpreadFacts (A n e N : ℕ) : Prop where
  h6 : (⟨3, ![A, n, 2]⟩ : Shape).ShapeCasts ⟨4, ![A, n, 2, 1]⟩
  h7 : (⟨4, ![A, n, 2, 1]⟩ : Shape).ShapeCasts ⟨4, ![A, n, 2, 1]⟩
  h8 : (⟨4, ![A, n, 2, 1]⟩ : Shape).Broadcasts ⟨4, ![A, n, 2, e]⟩
  h9 : (⟨4, ![A, n, 2, e]⟩ : Shape).ShapeCasts ⟨2, ![A, N]⟩

/-- … at the last level, whose halves are single entries. -/
structure KSpreadLastFacts (A n N : ℕ) : Prop where
  h6 : (⟨3, ![A, n, 2]⟩ : Shape).ShapeCasts ⟨4, ![A, n, 2, 1]⟩
  h9 : (⟨4, ![A, n, 2, 1]⟩ : Shape).ShapeCasts ⟨2, ![A, N]⟩

/-- The same for a host program. -/
structure HProbFacts (A n e N : ℕ) : Prop where
  g1 : (⟨2, ![A, N]⟩ : Shape).ShapeCasts ⟨4, ![A, n, 2, e]⟩
  g2 : (⟨4, ![A, n, 2, e]⟩ : Shape).ReducesTo [3] ⟨3, ![A, n, 2]⟩
  g3 : (⟨3, ![A, n, 2]⟩ : Shape).ReducesTo [2] ⟨2, ![A, n]⟩
  b0 : (⟨0, ![]⟩ : Shape).BroadcastsInDim ⟨3, ![A, n, 2]⟩ ![]
  b1 : (⟨0, ![]⟩ : Shape).BroadcastsInDim ⟨2, ![A, n]⟩ ![]
  b2 : (⟨2, ![A, n]⟩ : Shape).BroadcastsInDim ⟨3, ![A, n, 1]⟩ ![0, 1]
  b3 : (⟨3, ![A, n, 1]⟩ : Shape).BroadcastsInDim ⟨3, ![A, n, 2]⟩ ![0, 1, 2]

structure HSpreadFacts (A n e N : ℕ) : Prop where
  c0 : (⟨3, ![A, n, 2]⟩ : Shape).BroadcastsInDim ⟨4, ![A, n, 2, 1]⟩ ![0, 1, 2]
  c1 : (⟨4, ![A, n, 2, 1]⟩ : Shape).BroadcastsInDim ⟨4, ![A, n, 2, e]⟩ ![0, 1, 2, 3]
  c2 : (⟨4, ![A, n, 2, e]⟩ : Shape).ShapeCasts ⟨2, ![A, N]⟩

structure HSpreadLastFacts (A n N : ℕ) : Prop where
  c0 : (⟨3, ![A, n, 2]⟩ : Shape).BroadcastsInDim ⟨4, ![A, n, 2, 1]⟩ ![0, 1, 2]
  c2 : (⟨4, ![A, n, 2, 1]⟩ : Shape).ShapeCasts ⟨2, ![A, N]⟩

/-- The format and accumulator facts a float multi-reduction states. -/
structure RedFacts : Prop where
  hφ : FKind.Formats .f32
  ha : (0x00000000#32 : BitVec 32) = FKind.add.neutral .f32 hφ
  hm : (0xFF800000#32 : BitVec 32) = FKind.maximumf.neutral .f32 hφ

/-! ## The level in a vector program -/

section Vector
variable (A n e N : ℕ)

/-- The halves' logits. -/
def kMean (cnt : Ideal .f32) (f : KProbFacts A n e N) (r : RedFacts) (v0 : FVec Ideal ⟨2, ![A, N]⟩ .f32) : FVec Ideal ⟨3, ![A, n, 2]⟩ .f32 :=
  divf (multiReduction .add [3] ⟨3, ![A, n, 2]⟩ (shapeCast ⟨4, ![A, n, 2, e]⟩ v0 f.h1) 0x00000000#32 f.h2 r.hφ r.ha) (broadcast ⟨3, ![A, n, 2]⟩ cnt)

/-- exp of each logit less its group's larger one. -/
def kExp (f : KProbFacts A n e N) (r : RedFacts) (M : FVec Ideal ⟨3, ![A, n, 2]⟩ .f32) : FVec Ideal ⟨3, ![A, n, 2]⟩ .f32 :=
  exp (subf M (broadcastTo ⟨3, ![A, n, 2]⟩ (shapeCast ⟨3, ![A, n, 1]⟩
    (maximumf (broadcast ⟨2, ![A, n]⟩ (Scalar.ofBits .f32 0xFF800000#32)) (multiReduction .maximumf [2] ⟨2, ![A, n]⟩ M 0xFF800000#32 f.h3 r.hφ r.hm)) f.h4) f.h5))

/-- The halves' probabilities. -/
def kSoft (f : KProbFacts A n e N) (r : RedFacts) (M : FVec Ideal ⟨3, ![A, n, 2]⟩ .f32) : FVec Ideal ⟨3, ![A, n, 2]⟩ .f32 :=
  divf (kExp A n e N f r M) (broadcastTo ⟨3, ![A, n, 2]⟩ (shapeCast ⟨3, ![A, n, 1]⟩
    (multiReduction .add [2] ⟨2, ![A, n]⟩ (kExp A n e N f r M) 0x00000000#32 f.h3 r.hφ r.ha) f.h4) f.h5)

/-- Every entry of the row at its half's value. -/
def kSpread (f : KSpreadFacts A n e N) (P : FVec Ideal ⟨3, ![A, n, 2]⟩ .f32) : FVec Ideal ⟨2, ![A, N]⟩ .f32 :=
  shapeCast ⟨2, ![A, N]⟩ (broadcastTo ⟨4, ![A, n, 2, e]⟩ (shapeCast ⟨4, ![A, n, 2, 1]⟩ (shapeCast ⟨4, ![A, n, 2, 1]⟩ P f.h6) f.h7) f.h8) f.h9

/-- The same when a half is one entry. -/
def kSpreadLast (f : KSpreadLastFacts A n N) (P : FVec Ideal ⟨3, ![A, n, 2]⟩ .f32) : FVec Ideal ⟨2, ![A, N]⟩ .f32 :=
  shapeCast ⟨2, ![A, N]⟩ (shapeCast ⟨4, ![A, n, 2, 1]⟩ P f.h6) f.h9

/-- The whole level. -/
def kLevel (cnt : Ideal .f32) (f : KProbFacts A n e N) (s : KSpreadFacts A n e N) (r : RedFacts) (v0 : FVec Ideal ⟨2, ![A, N]⟩ .f32) :
    FVec Ideal ⟨2, ![A, N]⟩ .f32 :=
  kSpread A n e N s (kSoft A n e N f r (kMean A n e N cnt f r v0))

def kLevelLast (cnt : Ideal .f32) (f : KProbFacts A n 1 N) (s : KSpreadLastFacts A n N) (r : RedFacts) (v0 : FVec Ideal ⟨2, ![A, N]⟩ .f32) :
    FVec Ideal ⟨2, ![A, N]⟩ .f32 :=
  kSpreadLast A n N s (kSoft A n 1 N f r (kMean A n 1 N cnt f r v0))

variable {A n e N}

theorem kMean_apply (hN : n * 2 * e = N) (cnt : Ideal .f32) (f : KProbFacts A n e N) (r : RedFacts) (v0 : FVec Ideal ⟨2, ![A, N]⟩ .f32)
    (p : Fin A) (k : Fin n) (j : Fin 2) :
    kMean A n e N cnt f r v0 (ix3 p k j) = halfMean cnt (fun d => v0 (ix2 p (cell hN k j d))) := by
  unfold kMean halfMean
  rw [divf_apply, broadcast_apply, ksum_e_apply]
  simp only [cast_in_apply hN]

theorem kExp_apply (f : KProbFacts A n e N) (r : RedFacts) (M : FVec Ideal ⟨3, ![A, n, 2]⟩ .f32) (p : Fin A) (k : Fin n) (j : Fin 2) :
    kExp A n e N f r M (ix3 p k j)
      = Ideal.exp (M (ix3 p k j) - max negInf ((Finset.univ : Finset (Fin 2)).fold max negInf (fun j' => M (ix3 p k j')))) := by
  unfold kExp
  rw [exp_apply, subf_apply, bcast_group_apply, cast_group_unit_apply, maximumf_apply, broadcast_apply, kmax_2_apply]
  rfl

theorem kSoft_apply (f : KProbFacts A n e N) (r : RedFacts) (M : FVec Ideal ⟨3, ![A, n, 2]⟩ .f32) (p : Fin A) (k : Fin n) (j : Fin 2) :
    kSoft A n e N f r M (ix3 p k j) = soft2 (fun j' => M (ix3 p k j')) j := by
  unfold kSoft soft2
  rw [divf_apply, bcast_group_apply, cast_group_unit_apply, ksum_2_apply]
  simp only [kExp_apply]

theorem kSpread_apply (hN : n * 2 * e = N) (f : KSpreadFacts A n e N) (P : FVec Ideal ⟨3, ![A, n, 2]⟩ .f32)
    (p : Fin A) (k : Fin n) (j : Fin 2) (d : Fin e) :
    kSpread A n e N f P (ix2 p (cell hN k j d)) = P (ix3 p k j) := by
  unfold kSpread
  rw [cast_out_apply hN, bcast_half_apply, shapeCast_self, cast_half_unit_apply]

theorem kSpreadLast_apply (hN : n * 2 * 1 = N) (f : KSpreadLastFacts A n N) (P : FVec Ideal ⟨3, ![A, n, 2]⟩ .f32)
    (p : Fin A) (k : Fin n) (j : Fin 2) (d : Fin 1) :
    kSpreadLast A n N f P (ix2 p (cell hN k j d)) = P (ix3 p k j) := by
  unfold kSpreadLast
  rw [cast_out_apply hN, cast_half_unit_apply]

end Vector

/-! ## The level in a host program -/

section Host
variable (A n e N : ℕ)

def hMean (w : BitVec 32) (f : HProbFacts A n e N) (hu : 0 < (⟨0, ![]⟩ : Shape).numel) (x : FVec Ideal ⟨2, ![A, N]⟩ .f32) : FVec Ideal ⟨3, ![A, n, 2]⟩ .f32 :=
  Host.divf (Host.reduceAdd (shapeCast ⟨4, ![A, n, 2, e]⟩ x f.g1) (constant ⟨0, ![]⟩ .f32 0x00000000#32) f.g2 hu)
    (broadcastInDim ⟨3, ![A, n, 2]⟩ ![] f.b0 (constant ⟨0, ![]⟩ .f32 w))

def hExp (f : HProbFacts A n e N) (hu : 0 < (⟨0, ![]⟩ : Shape).numel) (M : FVec Ideal ⟨3, ![A, n, 2]⟩ .f32) : FVec Ideal ⟨3, ![A, n, 2]⟩ .f32 :=
  Host.exp (subf M (broadcastInDim ⟨3, ![A, n, 2]⟩ ![0, 1, 2] f.b3 (broadcastInDim ⟨3, ![A, n, 1]⟩ ![0, 1] f.b2
    (maximumf (broadcastInDim ⟨2, ![A, n]⟩ ![] f.b1 (constant ⟨0, ![]⟩ .f32 0xFF800000#32))
      (Host.reduce FloatOps.maximumf M (constant ⟨0, ![]⟩ .f32 0xFF800000#32) f.g3 hu)))))

def hSoft (f : HProbFacts A n e N) (hu : 0 < (⟨0, ![]⟩ : Shape).numel) (M : FVec Ideal ⟨3, ![A, n, 2]⟩ .f32) : FVec Ideal ⟨3, ![A, n, 2]⟩ .f32 :=
  Host.divf (hExp A n e N f hu M) (broadcastInDim ⟨3, ![A, n, 2]⟩ ![0, 1, 2] f.b3 (broadcastInDim ⟨3, ![A, n, 1]⟩ ![0, 1] f.b2
    (Host.reduceAdd (hExp A n e N f hu M) (constant ⟨0, ![]⟩ .f32 0x00000000#32) f.g3 hu)))

def hSpread (f : HSpreadFacts A n e N) (P : FVec Ideal ⟨3, ![A, n, 2]⟩ .f32) : FVec Ideal ⟨2, ![A, N]⟩ .f32 :=
  shapeCast ⟨2, ![A, N]⟩ (broadcastInDim ⟨4, ![A, n, 2, e]⟩ ![0, 1, 2, 3] f.c1 (broadcastInDim ⟨4, ![A, n, 2, 1]⟩ ![0, 1, 2] f.c0 P)) f.c2

def hSpreadLast (f : HSpreadLastFacts A n N) (P : FVec Ideal ⟨3, ![A, n, 2]⟩ .f32) : FVec Ideal ⟨2, ![A, N]⟩ .f32 :=
  shapeCast ⟨2, ![A, N]⟩ (broadcastInDim ⟨4, ![A, n, 2, 1]⟩ ![0, 1, 2] f.c0 P) f.c2

def hLevel (w : BitVec 32) (f : HProbFacts A n e N) (s : HSpreadFacts A n e N) (hu : 0 < (⟨0, ![]⟩ : Shape).numel) (x : FVec Ideal ⟨2, ![A, N]⟩ .f32) :
    FVec Ideal ⟨2, ![A, N]⟩ .f32 :=
  hSpread A n e N s (hSoft A n e N f hu (hMean A n e N w f hu x))

def hLevelLast (w : BitVec 32) (f : HProbFacts A n 1 N) (s : HSpreadLastFacts A n N) (hu : 0 < (⟨0, ![]⟩ : Shape).numel) (x : FVec Ideal ⟨2, ![A, N]⟩ .f32) :
    FVec Ideal ⟨2, ![A, N]⟩ .f32 :=
  hSpreadLast A n N s (hSoft A n 1 N f hu (hMean A n 1 N w f hu x))

variable {A n e N}

theorem hMean_apply (hN : n * 2 * e = N) (w : BitVec 32) (f : HProbFacts A n e N) (hu : 0 < (⟨0, ![]⟩ : Shape).numel) (x : FVec Ideal ⟨2, ![A, N]⟩ .f32)
    (p : Fin A) (k : Fin n) (j : Fin 2) :
    hMean A n e N w f hu x (ix3 p k j) = halfMean (Ideal.ofBits .f32 w) (fun d => x (ix2 p (cell hN k j d))) := by
  unfold hMean halfMean
  rw [hdivf_apply, hconst_apply, hsum_e_apply]
  simp only [cast_in_apply hN, constant_apply, Ideal.ofBits_zero_f32, zero_add]

theorem hExp_apply (f : HProbFacts A n e N) (hu : 0 < (⟨0, ![]⟩ : Shape).numel) (M : FVec Ideal ⟨3, ![A, n, 2]⟩ .f32) (p : Fin A) (k : Fin n) (j : Fin 2) :
    hExp A n e N f hu M (ix3 p k j)
      = Ideal.exp (M (ix3 p k j) - max negInf ((Finset.univ : Finset (Fin 2)).fold max negInf (fun j' => M (ix3 p k j')))) := by
  unfold hExp
  rw [hexp_apply, subf_apply, hbcast_group_apply, hbcast_group_unit_apply, maximumf_apply, hconst_apply, hmax_2_apply, constant_apply]

theorem hSoft_apply (f : HProbFacts A n e N) (hu : 0 < (⟨0, ![]⟩ : Shape).numel) (M : FVec Ideal ⟨3, ![A, n, 2]⟩ .f32) (p : Fin A) (k : Fin n) (j : Fin 2) :
    hSoft A n e N f hu M (ix3 p k j) = soft2 (fun j' => M (ix3 p k j')) j := by
  unfold hSoft soft2
  rw [hdivf_apply, hbcast_group_apply, hbcast_group_unit_apply, hsum_2_apply]
  simp only [hExp_apply, constant_apply, Ideal.ofBits_zero_f32, zero_add]

theorem hSpread_apply (hN : n * 2 * e = N) (f : HSpreadFacts A n e N) (P : FVec Ideal ⟨3, ![A, n, 2]⟩ .f32)
    (p : Fin A) (k : Fin n) (j : Fin 2) (d : Fin e) :
    hSpread A n e N f P (ix2 p (cell hN k j d)) = P (ix3 p k j) := by
  unfold hSpread
  rw [cast_out_apply hN, hbcast_half_apply, hbcast_half_unit_apply]

theorem hSpreadLast_apply (hN : n * 2 * 1 = N) (f : HSpreadLastFacts A n N) (P : FVec Ideal ⟨3, ![A, n, 2]⟩ .f32)
    (p : Fin A) (k : Fin n) (j : Fin 2) (d : Fin 1) :
    hSpreadLast A n N f P (ix2 p (cell hN k j d)) = P (ix3 p k j) := by
  unfold hSpreadLast
  rw [cast_out_apply hN, hbcast_half_unit_apply]

end Host

/-! ## The two are one function of the row -/

variable {A A' n e N : ℕ}

/-- Where row p of the vector program's array is row p' of the host program's, the level's results agree there. -/
theorem level_eq (hN : n * 2 * e = N) (w : BitVec 32) (f : KProbFacts A n e N) (s : KSpreadFacts A n e N) (r : RedFacts)
    (f' : HProbFacts A' n e N) (s' : HSpreadFacts A' n e N) (hu : 0 < (⟨0, ![]⟩ : Shape).numel)
    (v0 : FVec Ideal ⟨2, ![A, N]⟩ .f32) (x : FVec Ideal ⟨2, ![A', N]⟩ .f32) (p : Fin A) (p' : Fin A')
    (hrow : ∀ c : Fin N, v0 (ix2 p c) = x (ix2 p' c)) (c : Fin N) :
    kLevel A n e N (Scalar.ofBits .f32 w) f s r v0 (ix2 p c) = hLevel A' n e N w f' s' hu x (ix2 p' c) := by
  obtain ⟨k, j, d, rfl⟩ := exists_cell hN c
  unfold kLevel hLevel
  rw [kSpread_apply hN, hSpread_apply hN, kSoft_apply, hSoft_apply]
  simp only [kMean_apply hN, hMean_apply hN, hrow]
  rfl

theorem levelLast_eq (hN : n * 2 * 1 = N) (w : BitVec 32) (f : KProbFacts A n 1 N) (s : KSpreadLastFacts A n N) (r : RedFacts)
    (f' : HProbFacts A' n 1 N) (s' : HSpreadLastFacts A' n N) (hu : 0 < (⟨0, ![]⟩ : Shape).numel)
    (v0 : FVec Ideal ⟨2, ![A, N]⟩ .f32) (x : FVec Ideal ⟨2, ![A', N]⟩ .f32) (p : Fin A) (p' : Fin A')
    (hrow : ∀ c : Fin N, v0 (ix2 p c) = x (ix2 p' c)) (c : Fin N) :
    kLevelLast A n N (Scalar.ofBits .f32 w) f s r v0 (ix2 p c) = hLevelLast A' n N w f' s' hu x (ix2 p' c) := by
  obtain ⟨k, j, d, rfl⟩ := exists_cell hN c
  unfold kLevelLast hLevelLast
  rw [kSpreadLast_apply hN, hSpreadLast_apply hN, kSoft_apply, hSoft_apply]
  simp only [kMean_apply hN, hMean_apply hN, hrow]
  rfl

end Cert.LibTree

end
-- ==== Proof.TreeFacts.lean ====
/-
  The shape facts of the ten levels of the tree over rows of 1024 logits — level l has n = 2^l groups of two halves
  of e = 512 / 2^l entries — for arrays of 1024 rows (a block) and of 32768 rows (the whole array), each decided at
  its literal extents.
-/
import proofs.«117842_j56023553409032_1_alg».proof.Proof.LibTreeLevel

namespace Cert.Tree

open Idealize.ShloMosaic Cert.LibTree

theorem red : RedFacts := ⟨.inl rfl, rfl, rfl⟩
theorem hu : 0 < (⟨0, ![]⟩ : Shape).numel := by decide
theorem hone : (⟨0, ![]⟩ : Shape).BroadcastsInDim ⟨2, ![32768, 1024]⟩ ![] := by decide

theorem kp0 : KProbFacts 1024 1 512 1024 := ⟨by decide, by decide, by decide, by decide, by decide⟩
theorem ks0 : KSpreadFacts 1024 1 512 1024 := ⟨by decide, by decide, by decide, by decide⟩
theorem hp0 : HProbFacts 32768 1 512 1024 := ⟨by decide, by decide, by decide, by decide, by decide, by decide, by decide⟩
theorem hs0 : HSpreadFacts 32768 1 512 1024 := ⟨by decide, by decide, by decide⟩
theorem kp1 : KProbFacts 1024 2 256 1024 := ⟨by decide, by decide, by decide, by decide, by decide⟩
theorem ks1 : KSpreadFacts 1024 2 256 1024 := ⟨by decide, by decide, by decide, by decide⟩
theorem hp1 : HProbFacts 32768 2 256 1024 := ⟨by decide, by decide, by decide, by decide, by decide, by decide, by decide⟩
theorem hs1 : HSpreadFacts 32768 2 256 1024 := ⟨by decide, by decide, by decide⟩
theorem kp2 : KProbFacts 1024 4 128 1024 := ⟨by decide, by decide, by decide, by decide, by decide⟩
theorem ks2 : KSpreadFacts 1024 4 128 1024 := ⟨by decide, by decide, by decide, by decide⟩
theorem hp2 : HProbFacts 32768 4 128 1024 := ⟨by decide, by decide, by decide, by decide, by decide, by decide, by decide⟩
theorem hs2 : HSpreadFacts 32768 4 128 1024 := ⟨by decide, by decide, by decide⟩
theorem kp3 : KProbFacts 1024 8 64 1024 := ⟨by decide, by decide, by decide, by decide, by decide⟩
theorem ks3 : KSpreadFacts 1024 8 64 1024 := ⟨by decide, by decide, by decide, by decide⟩
theorem hp3 : HProbFacts 32768 8 64 1024 := ⟨by decide, by decide, by decide, by decide, by decide, by decide, by decide⟩
theorem hs3 : HSpreadFacts 32768 8 64 1024 := ⟨by decide, by decide, by decide⟩
theorem kp4 : KProbFacts 1024 16 32 1024 := ⟨by decide, by decide, by decide, by decide, by decide⟩
theorem ks4 : KSpreadFacts 1024 16 32 1024 := ⟨by decide, by decide, by decide, by decide⟩
theorem hp4 : HProbFacts 32768 16 32 1024 := ⟨by decide, by decide, by decide, by decide, by decide, by decide, by decide⟩
theorem hs4 : HSpreadFacts 32768 16 32 1024 := ⟨by decide, by decide, by decide⟩
theorem kp5 : KProbFacts 1024 32 16 1024 := ⟨by decide, by decide, by decide, by decide, by decide⟩
theorem ks5 : KSpreadFacts 1024 32 16 1024 := ⟨by decide, by decide, by decide, by decide⟩
theorem hp5 : HProbFacts 32768 32 16 1024 := ⟨by decide, by decide, by decide, by decide, by decide, by decide, by decide⟩
theorem hs5 : HSpreadFacts 32768 32 16 1024 := ⟨by decide, by decide, by decide⟩
theorem kp6 : KProbFacts 1024 64 8 1024 := ⟨by decide, by decide, by decide, by decide, by decide⟩
theorem ks6 : KSpreadFacts 1024 64 8 1024 := ⟨by decide, by decide, by decide, by decide⟩
theorem hp6 : HProbFacts 32768 64 8 1024 := ⟨by decide, by decide, by decide, by decide, by decide, by decide, by decide⟩
theorem hs6 : HSpreadFacts 32768 64 8 1024 := ⟨by decide, by decide, by decide⟩
theorem kp7 : KProbFacts 1024 128 4 1024 := ⟨by decide, by decide, by decide, by decide, by decide⟩
theorem ks7 : KSpreadFacts 1024 128 4 1024 := ⟨by decide, by decide, by decide, by decide⟩
theorem hp7 : HProbFacts 32768 128 4 1024 := ⟨by decide, by decide, by decide, by decide, by decide, by decide, by decide⟩
theorem hs7 : HSpreadFacts 32768 128 4 1024 := ⟨by decide, by decide, by decide⟩
theorem kp8 : KProbFacts 1024 256 2 1024 := ⟨by decide, by decide, by decide, by decide, by decide⟩
theorem ks8 : KSpreadFacts 1024 256 2 1024 := ⟨by decide, by decide, by decide, by decide⟩
theorem hp8 : HProbFacts 32768 256 2 1024 := ⟨by decide, by decide, by decide, by decide, by decide, by decide, by decide⟩
theorem hs8 : HSpreadFacts 32768 256 2 1024 := ⟨by decide, by decide, by decide⟩
theorem kp9 : KProbFacts 1024 512 1 1024 := ⟨by decide, by decide, by decide, by decide, by decide⟩
theorem ks9 : KSpreadLastFacts 1024 512 1024 := ⟨by decide, by decide⟩
theorem hp9 : HProbFacts 32768 512 1 1024 := ⟨by decide, by decide, by decide, by decide, by decide, by decide, by decide⟩
theorem hs9 : HSpreadLastFacts 32768 512 1024 := ⟨by decide, by decide⟩

end Cert.Tree
-- ==== Proof.TreeFn.lean ====
/-
  The routing probabilities of a balanced binary tree over 1024 classes, row by row: the running product, started
  from 1, of the ten levels' spread softmax probabilities (level l: 2^l groups of two halves of 512 / 2^l entries,
  a half's logit the mean of its entries). kernelFn is that product as a vector program computes it on a block of 1024
  rows, refFn as a host program computes it on the whole array of 32768 rows; where a block's row is a row of the
  array the two agree entry by entry, each level being the same function of the row.
-/
import proofs.«117842_j56023553409032_1_alg».proof.Proof.TreeFacts

noncomputable section

namespace Cert.Tree

open Idealize.ShloMosaic Idealize.ShloMosaic.ValueIdx Cert.LibTree

/-- The ten levels' product on a block of 1024 rows, in a vector program's operations. -/
def kernelFn (v0 : FVec Ideal ⟨2, ![1024, 1024]⟩ .f32) : FVec Ideal ⟨2, ![1024, 1024]⟩ .f32 :=
  mulf (mulf (mulf (mulf (mulf (mulf (mulf (mulf (mulf (mulf (broadcast ⟨2, ![1024, 1024]⟩ (Scalar.ofBits (F := Ideal) .f32 0x3F800000#32))
    (kLevel 1024 1 512 1024 (Scalar.ofBits .f32 0x44000000#32) kp0 ks0 red v0))
    (kLevel 1024 2 256 1024 (Scalar.ofBits .f32 0x43800000#32) kp1 ks1 red v0))
    (kLevel 1024 4 128 1024 (Scalar.ofBits .f32 0x43000000#32) kp2 ks2 red v0))
    (kLevel 1024 8 64 1024 (Scalar.ofBits .f32 0x42800000#32) kp3 ks3 red v0))
    (kLevel 1024 16 32 1024 (Scalar.ofBits .f32 0x42000000#32) kp4 ks4 red v0))
    (kLevel 1024 32 16 1024 (Scalar.ofBits .f32 0x41800000#32) kp5 ks5 red v0))
    (kLevel 1024 64 8 1024 (Scalar.ofBits .f32 0x41000000#32) kp6 ks6 red v0))
    (kLevel 1024 128 4 1024 (Scalar.ofBits .f32 0x40800000#32) kp7 ks7 red v0))
    (kLevel 1024 256 2 1024 (Scalar.ofBits .f32 0x40000000#32) kp8 ks8 red v0))
    (kLevelLast 1024 512 1024 (Scalar.ofBits .f32 0x3F800000#32) kp9 ks9 red v0)

/-- The ten levels' product on the whole array, in a host program's operations. -/
def refFn (x : FVec Ideal ⟨2, ![32768, 1024]⟩ .f32) : FVec Ideal ⟨2, ![32768, 1024]⟩ .f32 :=
  mulf (mulf (mulf (mulf (mulf (mulf (mulf (mulf (mulf (mulf (broadcastInDim ⟨2, ![32768, 1024]⟩ ![] hone (constant (F := Ideal) ⟨0, ![]⟩ .f32 0x3F800000#32))
    (hLevel 32768 1 512 1024 0x44000000#32 hp0 hs0 hu x))
    (hLevel 32768 2 256 1024 0x43800000#32 hp1 hs1 hu x))
    (hLevel 32768 4 128 1024 0x43000000#32 hp2 hs2 hu x))
    (hLevel 32768 8 64 1024 0x42800000#32 hp3 hs3 hu x))
    (hLevel 32768 16 32 1024 0x42000000#32 hp4 hs4 hu x))
    (hLevel 32768 32 16 1024 0x41800000#32 hp5 hs5 hu x))
    (hLevel 32768 64 8 1024 0x41000000#32 hp6 hs6 hu x))
    (hLevel 32768 128 4 1024 0x40800000#32 hp7 hs7 hu x))
    (hLevel 32768 256 2 1024 0x40000000#32 hp8 hs8 hu x))
    (hLevelLast 32768 512 1024 0x3F800000#32 hp9 hs9 hu x)

/-- Where row p of the block is row p' of the array, the two products agree along it: level by level. -/
theorem tree_eq (v0 : FVec Ideal ⟨2, ![1024, 1024]⟩ .f32) (x : FVec Ideal ⟨2, ![32768, 1024]⟩ .f32) (p : Fin 1024) (p' : Fin 32768)
    (hrow : ∀ c : Fin 1024, v0 (ix2 p c) = x (ix2 p' c)) (q : Fin 1024) :
    kernelFn v0 (ix2 p q) = refFn x (ix2 p' q) := by
  unfold kernelFn refFn
  simp only [mulf_apply]
  rw [level_eq (by decide) 0x44000000#32 kp0 ks0 red hp0 hs0 hu v0 x p p' hrow q,
    level_eq (by decide) 0x43800000#32 kp1 ks1 red hp1 hs1 hu v0 x p p' hrow q,
    level_eq (by decide) 0x43000000#32 kp2 ks2 red hp2 hs2 hu v0 x p p' hrow q,
    level_eq (by decide) 0x42800000#32 kp3 ks3 red hp3 hs3 hu v0 x p p' hrow q,
    level_eq (by decide) 0x42000000#32 kp4 ks4 red hp4 hs4 hu v0 x p p' hrow q,
    level_eq (by decide) 0x41800000#32 kp5 ks5 red hp5 hs5 hu v0 x p p' hrow q,
    level_eq (by decide) 0x41000000#32 kp6 ks6 red hp6 hs6 hu v0 x p p' hrow q,
    level_eq (by decide) 0x40800000#32 kp7 ks7 red hp7 hs7 hu v0 x p p' hrow q,
    level_eq (by decide) 0x40000000#32 kp8 ks8 red hp8 hs8 hu v0 x p p' hrow q,
    levelLast_eq (by decide) 0x3F800000#32 kp9 ks9 red hp9 hs9 hu v0 x p p' hrow q]
  rfl

/-- The same at indices given with their coordinates. -/
theorem tree_eq' (v0 : FVec Ideal ⟨2, ![1024, 1024]⟩ .f32) (x : FVec Ideal ⟨2, ![32768, 1024]⟩ .f32)
    (y : (⟨2, ![1024, 1024]⟩ : Shape).Idx) (y' : (⟨2, ![32768, 1024]⟩ : Shape).Idx) (p : Fin 1024) (p' : Fin 32768) (q : Fin 1024)
    (hy : y = ix2 p q) (hy' : y' = ix2 p' q) (hrow : ∀ c : Fin 1024, v0 (ix2 p c) = x (ix2 p' c)) :
    kernelFn v0 y = refFn x y' := by
  subst hy hy'
  exact tree_eq v0 x p p' hrow q

end Cert.Tree

end
-- ==== Proof.KernelPay.lean ====
/-
  The kernel body's one store writes, at the exact reading, the ten levels' product of the block it loaded: the
  printed payloads, which cut the body's 199 operations at arbitrary places, compose to Cert.Tree.kernelFn — the same
  operations level by level, by unfolding.
-/
import proofs.«117842_j56023553409032_1_alg».proof.Proof.Gen.KernelIdeal.Skeleton
import proofs.«117842_j56023553409032_1_alg».proof.Proof.TreeFn

noncomputable section

namespace Cert.KernelIdeal.TreeValue

open Idealize.ShloMosaic Cert.KernelIdeal Cert.KernelIdeal.Gen

set_option maxRecDepth 65536 in
/-- The stored value, as the payloads compose it from the loaded block, is the ten levels' product of that block. -/
theorem pay_eq (v0 : Vec Ideal S1024x1024 .f32) :
    k0_pay1 (k0_pay8 v0 (k0_pay6 v0 (k0_pay4 v0 (k0_pay2 v0) (k0_pay3 v0) (Scalar.ofBits .f32 0x43000000#32)) (k0_pay5 v0)) (k0_pay7 v0))
        (k0_pay9 v0) (k0_pay10 v0) (Scalar.ofBits .f32 0xFF800000#32)
      = Cert.Tree.kernelFn v0 := rfl

end Cert.KernelIdeal.TreeValue

end
-- ==== Proof.KernelValue.lean ====
/-
  The idealized kernel's result array after its run. Grid point t loads rows 1024·t … 1024·t + 1023 of the argument
  (all 1024 columns), and writes back, to the same rows of the result, the ten levels' product of that block. A level
  works row by row, so the block's product at (p, q) is the whole array's product at (1024·t + p, q); the 32 blocks
  cover the 32768 rows, so the result array ends at the product of the whole argument array — the function the
  reference computes (Cert.Tree.refFn).
-/
import proofs.«117842_j56023553409032_1_alg».proof.Proof.Gen.KernelIdeal.Value
import proofs.«117842_j56023553409032_1_alg».proof.Proof.KernelPay

noncomputable section

namespace Cert.KernelIdeal.TreeValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- Both windows' block at point t is block (t, 0): decided over the 32 points. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- The input block at point t holds rows 1024·t … of the argument array. -/
theorem iblk_apply (c : Dev nD) (t : Fin cfg0.N) (x : S1024x1024.Idx) (k : S32768x1024.Idx)
    (hk0 : (k 0).val = t.val * 1024 + (x 0).val) (hk1 : (k 1).val = (x 1).val) :
    (iblk m c 0 t : Vec Ideal S1024x1024 .f32) x = (m ((c : Thread nD τ).loc main_arg0) : S32768x1024.Idx → Elt Ideal .f32) k := by
  obtain ⟨e0, e1, -, -⟩ := idx_facts t
  unfold iblk
  rw [View.read_apply]
  show V m c main_arg0 _ = m (c.tc.loc main_arg0) _
  unfold V
  congr 1
  funext a
  apply Fin.ext
  match a with
  | ⟨0, _⟩ => show win0_0.index t 0 * 1024 + 1 * (x 0).val = (k 0).val; rw [e0, hk0]; omega
  | ⟨1, _⟩ => show win0_0.index t 1 * 1024 + 1 * (x 1).val = (k 1).val; rw [e1, hk1]; omega

/-- What point t writes back is block t of the whole array's product. -/
theorem flushed_eq (c : Dev nD) (t : Fin cfg0.N) :
    (dats m 0 c).flushed 1 t = ((cfg0.win 1).blk t).view.read (Elt Ideal) (Cert.Tree.refFn (m ((c : Thread nD τ).loc main_arg0))) := by
  show (cfg0.win 1).cut (grid0.coords t) ((dats m 0 c).after 1 t) = _
  rw [after0_1]
  unfold out0_1
  rw [View.canon_unit_zero hz]
  simp only [View.ld_unit_zero (S := S1024x1024) hz]
  rw [pay_eq]
  obtain ⟨-, -, e2, e3⟩ := idx_facts t
  have hN : grid0.N = 32 := N_0
  have ht : t.val < 32 := Nat.lt_of_lt_of_eq (show t.val < grid0.N from t.isLt) hN
  funext j
  have hj0 : (j 0).val < 1024 := (j 0).isLt
  have hj1 : (j 1).val < 1024 := (j 1).isLt
  show Cert.Tree.kernelFn (iblk m c 0 t) j
    = Cert.Tree.refFn (m ((c : Thread nD τ).loc main_arg0)) (((cfg0.win 1).blk t).view.emb j)
  refine Cert.Tree.tree_eq' (iblk m c 0 t) (m ((c : Thread nD τ).loc main_arg0)) j (((cfg0.win 1).blk t).view.emb j)
    ⟨(j 0).val, hj0⟩ ⟨t.val * 1024 + (j 0).val, by omega⟩ ⟨(j 1).val, hj1⟩ ?_ ?_ ?_
  · exact eq_ix2 j
  · funext a
    apply Fin.ext
    match a with
    | ⟨0, _⟩ => show win0_1.index t 0 * 1024 + 1 * (j 0).val = t.val * 1024 + (j 0).val; rw [e2]; omega
    | ⟨1, _⟩ => show win0_1.index t 1 * 1024 + 1 * (j 1).val = (j 1).val; rw [e3]; omega
  · intro q
    exact iblk_apply m c t _ _ rfl rfl

/-- An index of the result array is in point t's block iff each coordinate is in the block's range on its axis. -/
theorem mem_blk (t : Fin cfg0.N) (i : S32768x1024.Idx) :
    i ∈ ((cfg0.win 1).blk t).view.set ↔ ∀ a : Fin 2, win0_1.index t a * S1024x1024.size a ≤ (i a).val ∧ (i a).val < win0_1.index t a * S1024x1024.size a + S1024x1024.size a := by
  show i ∈ ((View.whole main_v0).slice (win0_1.rect t)).set ↔ _
  rw [View.set_slice_whole, Rect.mem_set_unit]
  exact Iff.rfl

/-- The result array after the run is the ten levels' product of the argument array: row r is in the block of
    point r / 1024. -/
theorem final (c : Dev nD) : (dats m 0 c).arrAt 1 cfg0.N = Cert.Tree.refFn (m ((c : Thread nD τ).loc main_arg0)) :=
  (dats m 0 c).arrAt_eq_of_cover 1 (Cert.Tree.refFn (m ((c : Thread nD τ).loc main_arg0))) (fun t _ => flushed_eq m c t) fun i => by
    have hi0 : (i 0).val < 32768 := (i 0).isLt
    have hi1 : (i 1).val < 1024 := (i 1).isLt
    have hN : grid0.N = 32 := N_0
    have hlt : (i 0).val / 1024 < cfg0.N := by show (i 0).val / 1024 < grid0.N; rw [hN]; omega
    obtain ⟨-, -, e2, e3⟩ := idx_facts ⟨(i 0).val / 1024, hlt⟩
    refine ⟨⟨(i 0).val / 1024, hlt⟩, flush0_1 _, ?_⟩
    rw [mem_blk]
    intro a
    match a with
    | ⟨0, _⟩ =>
      show win0_1.index ⟨(i 0).val / 1024, hlt⟩ (0 : Fin 2) * 1024 ≤ (i 0).val ∧ (i 0).val < win0_1.index ⟨(i 0).val / 1024, hlt⟩ (0 : Fin 2) * 1024 + 1024
      rw [e2]; show (i 0).val / 1024 * 1024 ≤ (i 0).val ∧ (i 0).val < (i 0).val / 1024 * 1024 + 1024; omega
    | ⟨1, _⟩ =>
      show win0_1.index ⟨(i 0).val / 1024, hlt⟩ (1 : Fin 2) * 1024 ≤ (i 1).val ∧ (i 1).val < win0_1.index ⟨(i 0).val / 1024, hlt⟩ (1 : Fin 2) * 1024 + 1024
      rw [e3]; omega

/-- The idealized kernel's run, read: the result array at the product of the argument array, the argument unchanged. -/
theorem run : θ_run defs (onTc (τ := τ) (main (F := Ideal))) ⟨m, fun _ => 0, ρ⟩ fun r => ∀ c : Dev nD,
      r.2.mem ((c : Thread nD τ).loc main_v0) = Cert.Tree.refFn (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Cert.KernelIdeal.TreeValue

end
-- ==== Proof.RefRun.lean ====
/-
  The reference's run, read: its result array ends at the ten levels' product of the argument array
  (Cert.Tree.refFn), the composed term of its 189 host operations being that product level by level, by unfolding;
  the argument array is unchanged.
-/
import proofs.«117842_j56023553409032_1_alg».proof.Proof.Gen.ReferenceIdeal.Run
import proofs.«117842_j56023553409032_1_alg».proof.Proof.TreeFn

noncomputable section

namespace Cert.ReferenceIdeal.TreeValue

open Idealize.ShloMosaic Idealize.ShloMosaic.TcCoe Idealize.SL.Sem Cert.ReferenceIdeal Cert.ReferenceIdeal.Gen

set_option maxRecDepth 65536 in
/-- Every weakly fair execution of the reference terminates with its result at the ten levels' product of its argument. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v189) = Cert.Tree.refFn (m ((c.tc : Thread nD τ).loc main_arg0))
      ∧ r.2.mem ((c.tc : Thread nD τ).loc main_arg0) = m ((c.tc : Thread nD τ).loc main_arg0) :=
  (θ_run defs _ _).mono (fun _ h c => ⟨(h c).1.trans rfl, (h c).2⟩) (Cert.ReferenceIdeal.Value.run (F := Ideal) m ρ)

end Cert.ReferenceIdeal.TreeValue

end
-- ==== Proof.lean ====
/- Hierarchical soft routing over a balanced binary tree of 1024 classes, applied to each of 32768 rows of logits:
   at level l = 0 … 9 the row is cut into 2^l groups of two halves of 512 / 2^l classes; a half's logit is the mean of its
   classes' logits, the two halves of a group get the softmax of their two logits, and each class's probability is the
   product over the ten levels of the probability of the half it lies in. The kernel computes this on 32 blocks of 1024
   rows, the reference on the whole array, both by the same operations in the same order; so at the exact reading
   (extended reals) the two results are one function of the argument, level by level and row by row, with no
   algebraic law beyond 0 + s = s for the host's sums (started from an explicit 0) and no use of the inputs'
   finiteness.
   LibTreeLayout / LibTreeReduce / LibTreeLevel: one level, for a vector program and for a host program, read at an
   index and shown to be the same function of the row. TreeFacts / TreeFn: the ten levels' product on a block and on
   the whole array, equal row by row. KernelPay / KernelValue: the kernel's stored value is the block's product, and
   the result array after the run is the whole array's product. RefRun: the reference's run ends at the same. -/
import proofs.«117842_j56023553409032_1_alg».proof.Defs
import proofs.«117842_j56023553409032_1_alg».proof.Proof.Gen.Kernel
import proofs.«117842_j56023553409032_1_alg».proof.Proof.Gen.Kernel.Skeleton
import proofs.«117842_j56023553409032_1_alg».proof.Proof.Gen.Kernel.Launch
import proofs.«117842_j56023553409032_1_alg».proof.Proof.Gen.Kernel.Points
import proofs.«117842_j56023553409032_1_alg».proof.Proof.Gen.Kernel.Frame
import proofs.«117842_j56023553409032_1_alg».proof.Proof.Gen.KernelIdeal
import proofs.«117842_j56023553409032_1_alg».proof.Proof.Gen.KernelIdeal.Skeleton
import proofs.«117842_j56023553409032_1_alg».proof.Proof.Gen.KernelIdeal.Launch
import proofs.«117842_j56023553409032_1_alg».proof.Proof.Gen.KernelIdeal.Points
import proofs.«117842_j56023553409032_1_alg».proof.Proof.Gen.KernelIdeal.Frame
import proofs.«117842_j56023553409032_1_alg».proof.Proof.Gen.ReferenceIdeal
import proofs.«117842_j56023553409032_1_alg».proof.Proof.Gen.KernelIdeal.Value
import proofs.«117842_j56023553409032_1_alg».proof.Proof.Gen.ReferenceIdeal.Run
import proofs.«117842_j56023553409032_1_alg».proof.Proof.Gen.Pre_finite_inputs
import proofs.«117842_j56023553409032_1_alg».proof.Proof.KernelValue
import proofs.«117842_j56023553409032_1_alg».proof.Proof.RefRun
import Idealize.ShloMosaic.Adequacy
import Idealize.ShloMosaic.Init

noncomputable section

namespace Cert.Proof

open Idealize.ShloMosaic Idealize.SL.Sem

/-- The word-level kernel runs and leaves its argument unchanged. -/
theorem frame_k [Cert.Kernel.Facts] [Cert.Pre_finite_inputs.Facts] : Cert.frame_Kernel := fun m ρ _ => Cert.Kernel.Gen.frame m ρ

/-- So does the idealized kernel. -/
theorem frame_ki [Cert.KernelIdeal.Facts] [Cert.Pre_finite_inputs.Facts] : Cert.frame_KernelIdeal := fun m ρ _ => Cert.KernelIdeal.Gen.frame m ρ

/-- So does the idealized reference: its run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- From memories agreeing on the argument both idealized programs end with the result array at the ten levels'
    product of that argument. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Tree.refFn (m ((c.tc : Thread Cert.KernelIdeal.nD Cert.KernelIdeal.τ).loc Cert.KernelIdeal.main_arg0)),
    Cert.KernelIdeal.TreeValue.run m ρ, ?_⟩
  refine (θ_run Cert.ReferenceIdeal.defs _ _).mono (fun _ h c => ⟨(h c).1.trans ?_, (h c).2⟩)
    (Cert.ReferenceIdeal.TreeValue.run m' ρ')
  exact congrArg Cert.Tree.refFn (hagree c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
